-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v17_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v17_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S32x1024 : Shape := ⟨2, ![32, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1 .f32) (main_arg7 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1 .f32 := Host.absf main_arg6
  let main_cst_10 : FVec F S_ .f32 := constant S_ .f32 0x7F800000#32
  let main_v30 : FVec F S1024x1 .f32 := broadcastInDim S1024x1 ![] bcast_S_S1024x1 main_cst_10
  let main_v31 : IVec S1024x1 1 := cmpf .olt main_v29 main_v30
  let main_c_11 : IVec S_ 1 := constantI S_ 1 1#1
  let main_v32 : IVec S_ 1 := (fun x v => Host.reduce IntOp.andi x v reducesTo_S1024x1_S_d0_1 h_S_) main_v31 main_c_11
  let main_v33 : IVec S_ 1 := andi main_v28 main_v32
  fn_part2 (F := F) main_arg7 main_v33

def fn {F : FTy → Type} [FloatOps F] (main_arg0 : FVec F S32x2048x1024 .f32) (main_arg1 : FVec F S32x1024 .f32) (main_arg2 : FVec F S1024x1024 .f32) (main_arg3 : FVec F S1024 .f32) (main_arg4 : FVec F S1024x1024 .f32) (main_arg5 : FVec F S1024 .f32) (main_arg6 : FVec F S1024x1 .f32) (main_arg7 : FVec F S1 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S32x2048x1024 : Shape := ⟨3, ![32, 2048, 1024]⟩
abbrev S32x1024 : Shape := ⟨2, ![32, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1024 : Shape := ⟨2, ![1, 1024]⟩
abbrev S32x1x1024 : Shape := ⟨3, ![32, 1, 1024]⟩
abbrev S1x1 : Shape := ⟨2, ![1, 1]⟩
abbrev S32x2048x1 : Shape := ⟨3, ![32, 2048, 1]⟩
abbrev S1x512x1024 : Shape := ⟨3, ![1, 512, 1024]⟩
abbrev S1x1x1024 : Shape := ⟨3, ![1, 1, 1024]⟩
abbrev S1x512x1 : Shape := ⟨3, ![1, 512, 1]⟩
abbrev S512x1024 : Shape := ⟨2, ![512, 1024]⟩
abbrev S512 : Shape := ⟨1, ![512]⟩
abbrev S512x1 : Shape := ⟨2, ![512, 1]⟩
abbrev S_ : Shape := ⟨0, ![]⟩
abbrev S32x1 : Shape := ⟨2, ![32, 1]⟩
abbrev S32x1x1 : Shape := ⟨3, ![32, 1, 1]⟩
abbrev S1x1x1 : Shape := ⟨3, ![1, 1, 1]⟩

abbrev nBuf : Space → Nat
  | .hbm => 30
  | .vmem => 22
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S32x1024, .f32⟩
  | .hbm, ⟨9, _⟩ => ⟨S1x1024, .f32⟩
  | .hbm, ⟨10, _⟩ => ⟨S32x1024, .f32⟩
  | .hbm, ⟨11, _⟩ => ⟨S32x1024, .f32⟩
  | .hbm, ⟨12, _⟩ => ⟨S32x1x1024, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1, .f32⟩
  | .hbm, ⟨17, _⟩ => ⟨S32x2048x1, .f32⟩
  | .hbm, ⟨18, _⟩ => ⟨S_, .f32⟩
  | .hbm, ⟨19, _⟩ => ⟨S32x1, .f32⟩
  | .hbm, ⟨20, _⟩ => ⟨S32x1x1, .f32⟩
  | .hbm, ⟨21, _⟩ => ⟨S32x2048x1, .f32⟩
  | .hbm, ⟨22, _⟩ => ⟨S32x2048x1, .f32⟩
  | .hbm, ⟨23, _⟩ => ⟨S32x2048x1, .f32⟩
  | .hbm, ⟨24, _⟩ => ⟨S_, .f32⟩
  | .hbm, ⟨25, _⟩ => ⟨S32x1, .f32⟩
  | .hbm, ⟨26, _⟩ => ⟨S32x1x1, .f32⟩
  | .hbm, ⟨27, _⟩ => ⟨S32x2048x1, .f32⟩
  | .hbm, ⟨28, _⟩ => ⟨S32x1x1024, .f32⟩
  | .hbm, ⟨29, _⟩ => ⟨S32x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1, .f32⟩
  | .local _ .vmem, ⟨8, _⟩ => ⟨S1x512x1, .f32⟩
  | .local _ .vmem, ⟨9, _⟩ => ⟨S1x512x1, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1, .f32⟩
  | .local _ .vmem, ⟨13, _⟩ => ⟨S1x512x1, .f32⟩
  | .local _ .vmem, ⟨14, _⟩ => ⟨S1x1x1, .f32⟩
  | .local _ .vmem, ⟨15, _⟩ => ⟨S1x1x1, .f32⟩
  | .local _ .vmem, ⟨16, _⟩ => ⟨S1x1x1, .f32⟩
  | .local _ .vmem, ⟨17, _⟩ => ⟨S1x1x1, .f32⟩
  | .local _ .vmem, ⟨18, _⟩ => ⟨S1x512x1, .f32⟩
  | .local _ .vmem, ⟨19, _⟩ => ⟨S1x512x1, .f32⟩
  | .local _ .vmem, ⟨20, _⟩ => ⟨S1x1x1024, .f32⟩
  | .local _ .vmem, ⟨21, _⟩ => ⟨S1x1x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  shapeCasts_S32x1024_S32x1x1024 : S32x1024.ShapeCasts S32x1x1024
  bitsLt_bf16_f32 : FTy.bits .bf16 < FTy.bits .f32
  shapeCasts_S1024_S1x1024 : S1024.ShapeCasts S1x1024
  shapeCasts_S1024x1_S1x1024 : S1024x1.ShapeCasts S1x1024
  shapeCasts_S1_S1x1 : S1.ShapeCasts S1x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  reduces_S512x1024_S512 : S512x1024.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reducesTo_S32x2048x1_S32x1_d1 : S32x2048x1.ReducesTo [1] S32x1
  h_S_ : 0 < S_.numel
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  inb_S1x1x1_S1x1x1_0_0_0 : ∀ a, (![0, 0, 0] : Fin 3 → Nat) a + S1x1x1.size a ≤ S1x1x1.size a
  h_S1x1x1 : 0 < S1x1x1.numel
  inpos_S1x1x1_p0_0_0 : ∀ a, (![0, 0, 0] : Fin 3 → Nat) a < S1x1x1.size a
  broadcasts_S512x1_S512x1024 : S512x1.Broadcasts S512x1024
  reduces_S512x1024_S1024 : S512x1024.Reduces [0] S1024
  shapeCasts_S1x1024_S1x1x1024 : S1x1024.ShapeCasts S1x1x1024
  shapeCasts_S32x1x1024_S32x1024 : S32x1x1024.ShapeCasts S32x1024
  dot_S32x1024_S1024x1024_S32x1024_1_0_0_1_n_n_wf : DotDims.WF S32x1024 S1024x1024 S32x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x2048x1024.size a
  hwx0_0 : ∀ i : grid0.Coords, EltTy.bits .f32 = 32 ∨ (Rect.block (s := S32x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S32x1x1024.size a
  hwx0_3 : ∀ i : grid0.Coords, EltTy.bits .f32 = 32 ∨ (Rect.block (s := S32x1x1024) S1x1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1.size a ≤ S32x2048x1.size a
  hwx0_6 : ∀ i : grid0.Coords, EltTy.bits .f32 = 32 ∨ (Rect.block (s := S32x2048x1) S1x512x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S32x2048x1024.size a
  hwx1_0 : ∀ i : grid1.Coords, EltTy.bits .f32 = 32 ∨ (Rect.block (s := S32x2048x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1.size a ≤ S32x2048x1.size a
  hwx1_1 : ∀ i : grid1.Coords, EltTy.bits .f32 = 32 ∨ (Rect.block (s := S32x2048x1) S1x512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S32x1x1.size a
  hwx1_2 : ∀ i : grid1.Coords, EltTy.bits .f32 = 32 ∨ (Rect.block (s := S32x1x1) S1x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S32x1x1.size a
  hwx1_3 : ∀ i : grid1.Coords, EltTy.bits .f32 = 32 ∨ (Rect.block (s := S32x1x1) S1x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1.size a ≤ S32x2048x1.size a
  hwx1_4 : ∀ i : grid1.Coords, EltTy.bits .f32 = 32 ∨ (Rect.block (s := S32x2048x1) S1x512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1024.size a ≤ S32x1x1024.size a
  hwx1_5 : ∀ i : grid1.Coords, EltTy.bits .f32 = 32 ∨ (Rect.block (s := S32x1x1024) S1x1x1024.size (cc1_transform_5 i) (hinb1_5 i)).WholeWords (EltTy.packing .f32)

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x1x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v17_0) S1x512x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17_1) S1x1x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x2048x1024 : Shape := ⟨3, ![32, 2048, 1024]⟩
abbrev S32x1024 : Shape := ⟨2, ![32, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1x1024 : Shape := ⟨3, ![1, 1, 1024]⟩
abbrev S1x1024 : Shape := ⟨2, ![1, 1024]⟩
abbrev S32x1x1024 : Shape := ⟨3, ![32, 1, 1024]⟩
abbrev S32x2048x1 : Shape := ⟨3, ![32, 2048, 1]⟩
abbrev S1x1x1 : Shape := ⟨3, ![1, 1, 1]⟩
abbrev S_ : Shape := ⟨0, ![]⟩
abbrev S32x1 : Shape := ⟨2, ![32, 1]⟩
abbrev S32x1x1 : Shape := ⟨3, ![32, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S32x2048x1024, .f32⟩
  | .hbm, ⟨9, _⟩ => ⟨S1x1x1024, .f32⟩
  | .hbm, ⟨10, _⟩ => ⟨S32x2048x1024, .f32⟩
  | .hbm, ⟨11, _⟩ => ⟨S32x2048x1024, .f32⟩
  | .hbm, ⟨12, _⟩ => ⟨S32x1024, .f32⟩
  | .hbm, ⟨13, _⟩ => ⟨S1x1024, .f32⟩
  | .hbm, ⟨14, _⟩ => ⟨S32x1024, .f32⟩
  | .hbm, ⟨15, _⟩ => ⟨S32x1024, .f32⟩
  | .hbm, ⟨16, _⟩ => ⟨S32x1x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S32x2048x1, .f32⟩
  | .hbm, ⟨21, _⟩ => ⟨S1x1x1, .f32⟩
  | .hbm, ⟨22, _⟩ => ⟨S32x2048x1, .f32⟩
  | .hbm, ⟨23, _⟩ => ⟨S32x2048x1, .f32⟩
  | .hbm, ⟨24, _⟩ => ⟨S_, .f32⟩
  | .hbm, ⟨25, _⟩ => ⟨S32x1, .f32⟩
  | .hbm, ⟨26, _⟩ => ⟨S_, .f32⟩
  | .hbm, ⟨27, _⟩ => ⟨S32x1, .f32⟩
  | .hbm, ⟨28, _⟩ => ⟨S32x1, .f32⟩
  | .hbm, ⟨29, _⟩ => ⟨S32x1x1, .f32⟩
  | .hbm, ⟨30, _⟩ => ⟨S32x2048x1, .f32⟩
  | .hbm, ⟨31, _⟩ => ⟨S32x2048x1, .f32⟩
  | .hbm, ⟨32, _⟩ => ⟨S32x2048x1, .f32⟩
  | .hbm, ⟨33, _⟩ => ⟨S_, .f32⟩
  | .hbm, ⟨34, _⟩ => ⟨S32x1, .f32⟩
  | .hbm, ⟨35, _⟩ => ⟨S32x1x1, .f32⟩
  | .hbm, ⟨36, _⟩ => ⟨S32x2048x1, .f32⟩
  | .hbm, ⟨37, _⟩ => ⟨S32x2048x1, .f32⟩
  | .hbm, ⟨38, _⟩ => ⟨S32x2048x1024, .f32⟩
  | .hbm, ⟨39, _⟩ => ⟨S32x2048x1024, .f32⟩
  | .hbm, ⟨40, _⟩ => ⟨S_, .f32⟩
  | .hbm, ⟨41, _⟩ => ⟨S32x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S32x1024_S32x1x1024_0_2 : S32x1024.BroadcastsInDim S32x1x1024 (![0, 2] : Fin 2 → Fin S32x1x1024.rank)
  bcast_S32x1x1024_S32x2048x1024_0_1_2 : S32x1x1024.BroadcastsInDim S32x2048x1024 (![0, 1, 2] : Fin 3 → Fin S32x2048x1024.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  bcast_S32x2048x1_S32x2048x1024_0_1_2 : S32x2048x1.BroadcastsInDim S32x2048x1024 (![0, 1, 2] : Fin 3 → Fin S32x2048x1024.rank)
  reducesTo_S32x2048x1024_S32x1024_d1 : S32x2048x1024.ReducesTo [1] S32x1024
  dot_S32x2048x1024_S1024x1024_S32x2048x1024_2_0_01_1_n_n_wf : DotDims.WF S32x2048x1024 S1024x1024 S32x2048x1024 [2] [0] [0, 1] [1] [] []
  dot_S32x1024_S1024x1024_S32x1024_1_0_0_1_n_n_wf : DotDims.WF S32x1024 S1024x1024 S32x1024 [1] [0] [0] [1] [] []
  dot_S32x2048x1024_S1024x1_S32x2048x1_2_0_01_1_n_n_wf : DotDims.WF S32x2048x1024 S1024x1 S32x2048x1 [2] [0] [0, 1] [1] [] []

variable [Facts₀]

def dot_S32x2048x1024_S1024x1024_S32x2048x1024_2_0_01_1_n_n : DotDims S32x2048x1024 S1024x1024 S32x2048x1024 where
  lhsContracting := [2]
  rhsContracting := [0]
  lhsNonContracting := [0, 1]
  rhsNonContracting := [1]
  lhsBatch := []
  rhsBatch := []
  wf := dot_S32x2048x1024_S1024x1024_S32x2048x1024_2_0_01_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x2048x1024_S1024x1_S32x2048x1_2_0_01_1_n_n : DotDims S32x2048x1024 S1024x1 S32x2048x1 where
  lhsContracting := [2]
  rhsContracting := [0]
  lhsNonContracting := [0, 1]
  rhsNonContracting := [1]
  lhsBatch := []
  rhsBatch := []
  wf := dot_S32x2048x1024_S1024x1_S32x2048x1_2_0_01_1_n_n_wf

class Facts : Prop extends Facts₀ where

variable [Facts]
-- ==== Proof.RunResults.lean ====
/-
  The idealized kernel's run with its two results kept. @main is five segments — host operations, the logits
  region, host operations (the row maxima and the sums of exponentials), the context region, one closing
  reshape — and the contents of every unscoped buffer at each segment boundary are a fold from the launch memory.
  Every weakly fair execution terminates, nothing faulting, with the context vector's buffer and the attention
  weights' buffer holding what that fold leaves in them at the last boundary, and the eight arguments as launched.
-/
import proofs.«125012_j4870492914109_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the context vector (the reshaped accumulator, `main_v18`) and the attention weights (`main_v17_0`)
    end at the last boundary's contents `W5`; the arguments end as launched. -/
theorem run_results : θ_run defs (onTc (τ := τ) (main (F := F))) ⟨m, fun _ => 0, ρ⟩ (fun r => ∀ c : Dev nD,
      r.2.mem ((c.tc : Thread nD τ).loc main_v18) = W5 m ρ c (Proc.devRef .tc main_v18)
      ∧ r.2.mem ((c.tc : Thread nD τ).loc main_v17_0) = W5 m ρ c (Proc.devRef .tc main_v17_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v18 (by decide)),
       h c _ (mem_uc main_v17_0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Results

end
-- ==== Proof.Boundaries.lean ====
/-
  The segment boundaries read back. What the logits region finds in its six operand arrays (the features as
  launched; W1, b1, V and bv after their format change or reshapes; the hidden projection hidden·W2 + b2 as a
  [32,1,1024] array), what the context region finds in its four (the features; the logits the first region
  left; the row maxima and the sums of exponentials the host computed from those logits in between), and what
  the last boundary holds in the two result buffers: the second region's attention-weight array, and its
  accumulator array reshaped to [32,1024].
-/
import proofs.«125012_j4870492914109_2_alg».proof.Proof.Gen.KernelIdeal.Frame
import Idealize.ShloMosaic.Lib.StableHlo.Run
import Idealize.ShloMosaic.Lib.Pipeline.Value

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! ## The logits region's operands -/

theorem entry0_feat (c : Dev nD) : V1 m ρ c main_arg0 = m ((c.tc : Thread nD τ).loc main_arg0) := by
  show StableHlo.after hostOps0 (W0 m ρ c) (Proc.devRef .tc main_arg0) = _
  after_results

theorem entry0_w1 (c : Dev nD) : V1 m ρ c main_v5 = truncf .bf16 (m ((c.tc : Thread nD τ).loc main_arg2)) bitsLt_bf16_f32 := by
  show StableHlo.after hostOps0 (W0 m ρ c) (Proc.devRef .tc main_v5) = _
  after_results

theorem entry0_b1 (c : Dev nD) : V1 m ρ c main_v6 = shapeCast S1x1024 (m ((c.tc : Thread nD τ).loc main_arg3)) shapeCasts_S1024_S1x1024 := by
  show StableHlo.after hostOps0 (W0 m ρ c) (Proc.devRef .tc main_v6) = _
  after_results
  rfl

/-- The hidden projection, before its reshape: hidden · W2 + b2, the bias repeated down the 32 rows. -/
abbrev hiddenProj (c : Dev nD) : FVec F S32x1024 .f32 :=
  addf (Host.dotGeneral dot_S32x1024_S1024x1024_S32x1024_1_0_0_1_n_n none (m ((c.tc : Thread nD τ).loc main_arg1)) (m ((c.tc : Thread nD τ).loc main_arg4)))
    (broadcastInDim S32x1024 ![0, 1] bcast_S1x1024_S32x1024_0_1 (broadcastInDim S1x1024 ![1] bcast_S1024_S1x1024_1 (m ((c.tc : Thread nD τ).loc main_arg5))))

theorem entry0_ph (c : Dev nD) : V1 m ρ c main_v4 = shapeCast S32x1x1024 (hiddenProj m c) shapeCasts_S32x1024_S32x1x1024 := by
  show StableHlo.after hostOps0 (W0 m ρ c) (Proc.devRef .tc main_v4) = _
  after_results
  rfl

theorem entry0_v (c : Dev nD) : V1 m ρ c main_v7 = shapeCast S1x1024 (m ((c.tc : Thread nD τ).loc main_arg6)) shapeCasts_S1024x1_S1x1024 := by
  show StableHlo.after hostOps0 (W0 m ρ c) (Proc.devRef .tc main_v7) = _
  after_results
  rfl

theorem entry0_bv (c : Dev nD) : V1 m ρ c main_v8 = shapeCast S1x1 (m ((c.tc : Thread nD τ).loc main_arg7)) shapeCasts_S1_S1x1 := by
  show StableHlo.after hostOps0 (W0 m ρ c) (Proc.devRef .tc main_v8) = _
  after_results
  rfl

/-! ## The context region's operands -/

/-- The logits array as the first region leaves it. -/
abbrev logitsArr (c : Dev nD) : Buf (Elt F) ((c : Thread nD τ).loc main_v9) := (dat0 (V1 m ρ) c).arrAt 6 cfg0.N

theorem W2_logits (c : Dev nD) : W2 m ρ c (Proc.devRef .tc main_v9) = logitsArr m ρ c := W2_arr m ρ c 6

theorem entry1_logits (c : Dev nD) : V3 m ρ c main_v9 = logitsArr m ρ c := by
  show StableHlo.after hostOps1 (W2 m ρ c) (Proc.devRef .tc main_v9) = _
  after_results
  exact W2_logits m ρ c

/-- The row maxima of a logits array, as the host takes them: the max over the time axis from minus infinity. -/
abbrev rowMax (L : FVec F S32x2048x1 .f32) : FVec F S32x1 .f32 :=
  Host.reduce FloatOps.maximumf L (constant S_ .f32 0xFF800000#32) reducesTo_S32x2048x1_S32x1_d1 h_S_

/-- The sums of exponentials of a logits array against given row maxima: the sum over time of exp(logit - max). -/
abbrev rowSumExp (L : FVec F S32x2048x1 .f32) (M : FVec F S32x1 .f32) : FVec F S32x1 .f32 :=
  Host.reduceAdd (Host.exp (subf L (broadcastInDim S32x2048x1 ![0, 1, 2] bcast_S32x1x1_S32x2048x1_0_1_2
    (broadcastInDim S32x1x1 ![0, 2] bcast_S32x1_S32x1x1_0_2 M)))) (constant S_ .f32 0x00000000#32) reducesTo_S32x2048x1_S32x1_d1 h_S_

theorem entry1_max (c : Dev nD) :
    V3 m ρ c main_v11 = broadcastInDim S32x1x1 ![0, 2] bcast_S32x1_S32x1x1_0_2 (rowMax (logitsArr m ρ c)) := by
  show StableHlo.after hostOps1 (W2 m ρ c) (Proc.devRef .tc main_v11) = _
  after_results
  rw [W2_logits]

theorem entry1_sum (c : Dev nD) :
    V3 m ρ c main_v16 = broadcastInDim S32x1x1 ![0, 2] bcast_S32x1_S32x1x1_0_2 (rowSumExp (logitsArr m ρ c) (rowMax (logitsArr m ρ c))) := by
  show StableHlo.after hostOps1 (W2 m ρ c) (Proc.devRef .tc main_v16) = _
  after_results
  rw [W2_logits]

theorem entry1_feat (c : Dev nD) : V3 m ρ c main_arg0 = m ((c.tc : Thread nD τ).loc main_arg0) := by
  have e1 : W3 m ρ c (Proc.devRef .tc main_arg0) = W2 m ρ c (Proc.devRef .tc main_arg0) := by
    show StableHlo.after hostOps1 (W2 m ρ c) (Proc.devRef .tc main_arg0) = _
    after_results
  have e2 : W2 m ρ c (Proc.devRef .tc main_arg0) = W1 m ρ c (Proc.devRef .tc main_arg0) :=
    (W2_arr m ρ c 0).trans (((dat0 (V1 m ρ) c).arrAt_in 0 rfl _).trans (A_eq0 (V1 m ρ) c 0))
  exact e1.trans (e2.trans (entry0_feat m ρ c))

/-! ## The two results at the last boundary -/

theorem result_attn (c : Dev nD) : W5 m ρ c (Proc.devRef .tc main_v17_0) = (dat1 (V3 m ρ) c).arrAt 4 cfg1.N := by
  show StableHlo.after hostOps2 (W4 m ρ c) (Proc.devRef .tc main_v17_0) = _
  after_results
  exact W4_arr m ρ c 4

theorem result_ctx (c : Dev nD) :
    W5 m ρ c (Proc.devRef .tc main_v18) = shapeCast S32x1024 ((dat1 (V3 m ρ) c).arrAt 5 cfg1.N) shapeCasts_S32x1x1024_S32x1024 := by
  show StableHlo.after hostOps2 (W4 m ρ c) (Proc.devRef .tc main_v18) = _
  after_results
  rw [show W4 m ρ c (Proc.devRef .tc main_v17_1) = (dat1 (V3 m ρ) c).arrAt 5 cfg1.N from W4_arr m ρ c 5]
  rfl

end Cert.KernelIdeal.Results

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibRowForms.lean ====
/-
  General facts about arrays with a leading unit axis, read at an entry.

  * A [1, B, C] slab viewed as a [B, C] matrix reads, at (p, q), the slab at (0, p, q) (unslab_apply).
  * A [1, M] row viewed as a vector of length M reads, at p, the row at (0, p) (rowVec_apply).
  * A [1, N] row repeated down M rows reads, at (p, q), the row at (0, q) (rowBroadcast_apply).
  * A vector of length M viewed as a [1, M] row reads, at (0, p), the vector at p (vecRow_apply).
-/
import Idealize.ShloMosaic.Lib.ValueIdx
import Idealize.ShloMosaic.Lib.Pipeline.Value

noncomputable section

namespace Cert.Lib.RowForms

open Idealize.ShloMosaic Idealize.ShloMosaic.ValueIdx

variable {α : Type} {M N B C : Nat}

/-- A [1, B, C] slab viewed as a [B, C] matrix: entry (p, q) is entry (0, p, q). -/
theorem unslab_apply (v : (⟨3, ![1, B, C]⟩ : Shape).Idx → α) (h : (⟨3, ![1, B, C]⟩ : Shape).ShapeCasts ⟨2, ![B, C]⟩)
    (p : Fin B) (q : Fin C) : shapeCast ⟨2, ![B, C]⟩ v h (ix2 p q) = v (ix3 (0 : Fin 1) p q) :=
  shapeCast_apply v h (ix2 p q) (ix3 (0 : Fin 1) p q) (by
    rw [Shape.rowMajor_val_two, Shape.rowMajor_val_three]
    show (0 * B + p.val) * C + q.val = p.val * C + q.val
    rw [Nat.zero_mul, Nat.zero_add])

/-- A [1, M] row viewed as a vector of length M: entry p is entry (0, p). -/
theorem rowVec_apply (v : (⟨2, ![1, M]⟩ : Shape).Idx → α) (h : (⟨2, ![1, M]⟩ : Shape).ShapeCasts ⟨1, ![M]⟩)
    (p : Fin M) : shapeCast ⟨1, ![M]⟩ v h (ix1 p) = v (ix2 (0 : Fin 1) p) :=
  shapeCast_apply v h (ix1 p) (ix2 (0 : Fin 1) p) (by
    rw [Shape.rowMajor_val_one, Shape.rowMajor_val_two]
    show 0 * M + p.val = p.val
    rw [Nat.zero_mul, Nat.zero_add])

/-- A [1, N] row repeated down M rows: entry (p, q) is the row's entry (0, q). -/
theorem rowBroadcast_apply (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by
        show q.val = if N = 1 then 0 else q.val
        split
        · have := q.isLt; omega
        · rfl)

/-- A vector of length M viewed as a [1, M] row: entry (0, p) is entry p. -/
theorem vecRow_apply (v : (⟨1, ![M]⟩ : Shape).Idx → α) (h : (⟨1, ![M]⟩ : Shape).ShapeCasts ⟨2, ![1, M]⟩)
    (p : Fin M) : shapeCast ⟨2, ![1, M]⟩ v h (ix2 (0 : Fin 1) p) = v (ix1 p) :=
  shapeCast_apply v h (ix2 (0 : Fin 1) p) (ix1 p) (by
    rw [Shape.rowMajor_val_one, Shape.rowMajor_val_two]
    show p.val = 0 * M + p.val
    rw [Nat.zero_mul, Nat.zero_add])

end Cert.Lib.RowForms

end
-- ==== Proof.LibUnitSpread.lean ====
/-
  A single row of lanes, or a single number, repeated over a block, read at an entry.

  * A [1, 1, C] array repeated over an [A, B, C] block reads, at (r, p, q), its entry (0, 0, q) (spread_lane).
  * A [1, 1] array repeated over an [A, B] block reads, at (r, p), its one entry (0, 0) (spread_one).
-/
import Idealize.ShloMosaic.Lib.ValueIdx
import Idealize.ShloMosaic.Lib.Pipeline.Value

noncomputable section

namespace Cert.Lib.UnitSpread

open Idealize.ShloMosaic Idealize.ShloMosaic.ValueIdx

variable {α : Type} {A B C : Nat}

/-- A [1, 1, C] array repeated along both leading axes: entry (r, p, q) is the array's entry (0, 0, q). -/
theorem spread_lane (v : (⟨3, ![1, 1, C]⟩ : Shape).Idx → α) (h : (⟨3, ![1, 1, C]⟩ : Shape).Broadcasts ⟨3, ![A, B, C]⟩)
    (r : Fin A) (p : Fin B) (q : Fin C) :
    broadcastTo ⟨3, ![A, B, C]⟩ v h (ix3 r p q) = v (ix3 (0 : Fin 1) (0 : Fin 1) q) :=
  broadcastTo_apply v h (ix3 r p q) (ix3 (0 : Fin 1) (0 : Fin 1) q) (fun a => match a with
    | ⟨0, _⟩ => by show 0 = if (1 : Nat) = 1 then 0 else r.val; rw [if_pos rfl]
    | ⟨1, _⟩ => by show 0 = if (1 : Nat) = 1 then 0 else p.val; rw [if_pos rfl]
    | ⟨2, _⟩ => by
        show q.val = if C = 1 then 0 else q.val
        split
        · have := q.isLt; omega
        · rfl)

/-- A [1, 1] array repeated over an [A, B] block: every entry is the array's one entry. -/
theorem spread_one (v : (⟨2, ![1, 1]⟩ : Shape).Idx → α) (h : (⟨2, ![1, 1]⟩ : Shape).Broadcasts ⟨2, ![A, B]⟩)
    (r : Fin A) (p : Fin B) : broadcastTo ⟨2, ![A, B]⟩ v h (ix2 r p) = v (ix2 (0 : Fin 1) (0 : Fin 1)) :=
  broadcastTo_apply v h (ix2 r p) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else p.val; rw [if_pos rfl])

end Cert.Lib.UnitSpread

end
-- ==== Proof.Payloads.lean ====
/-
  What each store of the two kernel bodies writes, read at one entry, at the ideal values.

  The logits body (one block of 512 time steps of one batch row): row r of the stored column is
      (sum over u of tanh((sum over d of x[r,d] * W1[d,u]) + b1[u] + ph[u]) * V[u]) + bv,
  the matrix product into a zero accumulator read as a plain sum, the lane reduction as a plain sum, the narrowing
  of the product's operands the identity.
  The context body: the stored column of attention weights at row r is exp(logit[r] - m) / l for the two loaded
  scalars m and l; the stored accumulator row at lane d is its previous contents plus the sum over the 512 rows of
  weight[r] * x[r,d].
-/
import proofs.«125012_j4870492914109_2_alg».proof.Proof.Gen.KernelIdeal.Skeleton
import proofs.«125012_j4870492914109_2_alg».proof.Proof.LibPlainDot
import proofs.«125012_j4870492914109_2_alg».proof.Proof.LibColumn
import proofs.«125012_j4870492914109_2_alg».proof.Proof.LibRowForms
import proofs.«125012_j4870492914109_2_alg».proof.Proof.LibUnitSpread
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx Cert.Lib

/-! ## Pointwise transcendentals and small index facts -/

theorem tanh_apply {s : Shape} {φ : FTy} (a : FVec Ideal s φ) (i : s.Idx) : tanh a i = Ideal.tanh (a i) := rfl

theorem exp_apply {s : Shape} {φ : FTy} (a : FVec Ideal s φ) (i : s.Idx) : exp a i = Ideal.exp (a i) := rfl

/-- The printed dimension numbers of the logits product are those of a plain 512 x 1024 by 1024 x 1024 product. -/
theorem dims_plain : dot_S512x1024_S1024x1024_S512x1024_1_0_0_1_n_n = DotDims.plain 512 1024 1024 := rfl

/-- With the lane coordinate put back, a reduced row index `r` and lane `k` name the entry `(r, k)`. -/
theorem lift_lane (h : S512x1024.Reduces [1] S512) (r : Fin 512) (k : Fin 1024) :
    h.lift (ix1 r) k = ix2 r k := by
  funext a
  apply Fin.ext
  match a with
  | ⟨0, _⟩ => rfl
  | ⟨1, _⟩ => rfl

/-- With the row coordinate put back, a reduced lane index `d` and row `k` name the entry `(k, d)`. -/
theorem lift_row (h : S512x1024.Reduces [0] S1024) (d : Fin 1024) (k : Fin 512) :
    h.lift (ix1 d) k = ix2 k d := by
  funext a
  apply Fin.ext
  match a with
  | ⟨0, _⟩ => rfl
  | ⟨1, _⟩ => rfl

/-- A lane sum of a 512 x 1024 block, at row `r`: the sum of the row's 1024 entries. -/
theorem laneSum_apply (src : FVec Ideal S512x1024 .f32) (h : S512x1024.Reduces [1] S512) (hφ : FKind.Formats .f32)
    (hacc : (0x00000000#32 : BitVec 32) = FKind.add.neutral .f32 hφ) (r : Fin 512) :
    multiReduction .add [1] S512 src 0x00000000#32 h hφ hacc (ix1 r) = ∑ k : Fin 1024, src (ix2 r k) :=
  (Ideal.multiReduction_add_single src 0x00000000#32 h hφ hacc (ix1 r)).trans
    (Finset.sum_congr rfl fun k _ => congrArg src (lift_lane h r k))

/-- A sum of a 512 x 1024 block down its rows, at lane `d`: the sum of the column's 512 entries. -/
theorem rowSum_apply (src : FVec Ideal S512x1024 .f32) (h : S512x1024.Reduces [0] S1024) (hφ : FKind.Formats .f32)
    (hacc : (0x00000000#32 : BitVec 32) = FKind.add.neutral .f32 hφ) (d : Fin 1024) :
    multiReduction .add [0] S1024 src 0x00000000#32 h hφ hacc (ix1 d) = ∑ k : Fin 512, src (ix2 k d) :=
  (Ideal.multiReduction_add_single src 0x00000000#32 h hφ hacc (ix1 d)).trans
    (Finset.sum_congr rfl fun k _ => congrArg src (lift_row h d k))

/-- The one entry of a [1,1,1] block, extracted at position (0,0,0). -/
theorem extract_one {α : Type} (v : S1x1x1.Idx → α) (h : ∀ a, (![0, 0, 0] : Fin 3 → Nat) a < S1x1x1.size a) :
    extractAt ![0, 0, 0] v h = v (ix3 (0 : Fin 1) (0 : Fin 1) (0 : Fin 1)) := by
  unfold extractAt
  refine congrArg v (funext fun a => Fin.ext ?_)
  match a with
  | ⟨0, _⟩ => rfl
  | ⟨1, _⟩ => rfl
  | ⟨2, _⟩ => rfl

/-! ## The logits body -/

/-- The logits body's stored column at row `r`. -/
theorem logits_row (x0 : FVec Ideal S1x512x1024 .f32) (w : FVec Ideal S1024x1024 .bf16) (b1 : FVec Ideal S1x1024 .f32)
    (ph : FVec Ideal S1x1x1024 .f32) (v : FVec Ideal S1x1024 .f32) (bv : FVec Ideal S1x1 .f32) (r : Fin 512) :
    k0_pay1 (F := Ideal) x0 w b1 ph v bv (ix3 (0 : Fin 1) r (0 : Fin 1))
      = (∑ u : Fin 1024, Ideal.tanh (((∑ d : Fin 1024, x0 (ix3 (0 : Fin 1) r d) * w (ix2 d u)) + b1 (ix2 (0 : Fin 1) u))
            + ph (ix3 (0 : Fin 1) (0 : Fin 1) u)) * v (ix2 (0 : Fin 1) u))
          + bv (ix2 (0 : Fin 1) (0 : Fin 1)) := by
  unfold k0_pay1
  refine (shapeCast_ab_1ab_apply _ _ (0 : Fin 1) r (0 : Fin 1)).trans ?_
  refine (addf_apply _ _ _).trans ?_
  refine congrArg₂ (· + ·) ?_ ?_
  · refine (Column.col_apply _ _ r).trans ?_
    refine (laneSum_apply _ _ _ _ r).trans ?_
    refine Finset.sum_congr rfl fun u _ => ?_
    refine (mulf_apply _ _ _).trans ?_
    refine congrArg₂ (· * ·) ?_ ?_
    · refine (tanh_apply _ _).trans (congrArg Ideal.tanh ?_)
      refine (addf_apply _ _ _).trans ?_
      refine congrArg₂ (· + ·) ?_ ?_
      · refine (addf_apply _ _ _).trans ?_
        refine congrArg₂ (· + ·) ?_ ?_
        · refine (PlainDot.matmul_zero_apply (M := 512) (K := 1024) (N := 1024) none _ _ r u).trans ?_
          refine Finset.sum_congr rfl fun d _ => ?_
          refine congrArg₂ (· * ·) ?_ ?_
          · exact RowForms.unslab_apply x0 _ r d
          · exact congrFun (shapeCast_self w _) _
        · refine (RowForms.rowBroadcast_apply _ _ r u).trans ?_
          exact congrFun (shapeCast_self b1 _) _
      · refine (RowForms.rowBroadcast_apply _ _ r u).trans ?_
        exact RowForms.unslab_apply ph _ (0 : Fin 1) u
    · refine (RowForms.rowBroadcast_apply _ _ r u).trans ?_
      exact congrFun (shapeCast_self v _) _
  · refine (UnitSpread.spread_one _ _ r (0 : Fin 1)).trans ?_
    exact congrFun (shapeCast_self bv _) _

/-! ## The context body -/

/-- The attention weights of one block at row `r`, from the loaded logits column and the two loaded scalars. -/
theorem weight_row (mx : FVec Ideal S1x1x1 .f32) (sm : FVec Ideal S1x1x1 .f32) (lg : FVec Ideal S1x512x1 .f32) (r : Fin 512) :
    k1_pay2 (F := Ideal) mx sm lg (ix2 r (0 : Fin 1))
      = Ideal.div (Ideal.exp (lg (ix3 (0 : Fin 1) r (0 : Fin 1)) - mx (ix3 (0 : Fin 1) (0 : Fin 1) (0 : Fin 1))))
          (sm (ix3 (0 : Fin 1) (0 : Fin 1) (0 : Fin 1))) := by
  unfold k1_pay2
  refine (divf_apply _ _ _).trans ?_
  refine congrArg₂ Ideal.div ?_ ?_
  · refine (exp_apply _ _).trans (congrArg Ideal.exp ?_)
    refine (subf_apply _ _ _).trans ?_
    refine congrArg₂ (· - ·) ?_ ?_
    · exact RowForms.unslab_apply lg _ r (0 : Fin 1)
    · exact (broadcast_apply _ _).trans (extract_one mx _)
  · exact (broadcast_apply _ _).trans (extract_one sm _)

/-- The stored block of attention weights is that column with a leading unit axis. -/
theorem weight_store (mx : FVec Ideal S1x1x1 .f32) (sm : FVec Ideal S1x1x1 .f32) (lg : FVec Ideal S1x512x1 .f32) (r : Fin 512) :
    k1_pay3 (F := Ideal) mx sm lg (ix3 (0 : Fin 1) r (0 : Fin 1)) = k1_pay2 (F := Ideal) mx sm lg (ix2 r (0 : Fin 1)) := by
  unfold k1_pay3
  exact shapeCast_ab_1ab_apply _ _ (0 : Fin 1) r (0 : Fin 1)

/-- The stored accumulator row at lane `d`: what it held plus the block's weighted sum of feature rows. -/
theorem acc_store (mx : FVec Ideal S1x1x1 .f32) (sm : FVec Ideal S1x1x1 .f32) (lg : FVec Ideal S1x512x1 .f32)
    (x0 : FVec Ideal S1x512x1024 .f32) (acc : FVec Ideal S1x1x1024 .f32) (d : Fin 1024) :
    k1_pay4 (F := Ideal) mx sm lg x0 acc (ix3 (0 : Fin 1) (0 : Fin 1) d)
      = acc (ix3 (0 : Fin 1) (0 : Fin 1) d)
        + ∑ r : Fin 512, k1_pay2 (F := Ideal) mx sm lg (ix2 r (0 : Fin 1)) * x0 (ix3 (0 : Fin 1) r d) := by
  unfold k1_pay4
  refine (shapeCast_ab_1ab_apply _ _ (0 : Fin 1) (0 : Fin 1) d).trans ?_
  refine (addf_apply _ _ _).trans ?_
  refine congrArg₂ (· + ·) ?_ ?_
  · exact RowForms.unslab_apply acc _ (0 : Fin 1) d
  · refine (RowForms.vecRow_apply _ _ d).trans ?_
    refine (rowSum_apply _ _ _ _ d).trans ?_
    refine Finset.sum_congr rfl fun r _ => ?_
    refine (mulf_apply _ _ _).trans ?_
    refine congrArg₂ (· * ·) ?_ ?_
    · exact Column.colBroadcast_apply _ _ r d
    · exact RowForms.unslab_apply x0 _ r d

/-- The zero the reset stores is the extended real 0 at every lane. -/
theorem reset_store (i : S1x1x1024.Idx) : k1_pay1 (F := Ideal) i = 0 := by
  unfold k1_pay1
  exact (broadcast_apply _ _).trans Ideal.ofBits_zero_f32

end Cert.KernelIdeal.Payloads

end
-- ==== Proof.LogitsRegion.lean ====
/-
  The logits region, read as values. Its grid is 32 batch rows by 4 blocks of 512 time steps; point (b, j) reads
  the features' block (b, j), the whole of W1, b1, V and bv, and row b of the hidden projection, and writes back
  block (b, j) of the [32,2048,1] logits array. Every point writes back and the 128 blocks tile the array, so the
  array ends as ONE function of the six operand arrays as the region finds them:
      logit[b,t] = (sum over u of tanh((sum over d of x[b,t,d] * W1[d,u]) + b1[u] + ph[b,u]) * V[u]) + bv.
-/
import proofs.«125012_j4870492914109_2_alg».proof.Proof.Gen.KernelIdeal.Frame
import proofs.«125012_j4870492914109_2_alg».proof.Proof.Payloads
import Idealize.ShloMosaic.Lib.Pipeline.Value
import Idealize.ShloMosaic.Lib.ValueIdx

set_option maxRecDepth 16384

noncomputable section

open scoped BigOperators

namespace Cert.KernelIdeal.LogitsRegion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- One logit from the six operand arrays. -/
def logitAt (x : S32x2048x1024.Idx → EReal) (w : S1024x1024.Idx → EReal) (b1 : S1x1024.Idx → EReal)
    (ph : S32x1x1024.Idx → EReal) (v : S1x1024.Idx → EReal) (bv : S1x1.Idx → EReal) (b : Fin 32) (t : Fin 2048) : EReal :=
  (∑ u : Fin 1024, Ideal.tanh (((∑ d : Fin 1024, x (ix3 b t d) * w (ix2 d u)) + b1 (ix2 (0 : Fin 1) u))
      + ph (ix3 b (0 : Fin 1) u)) * v (ix2 (0 : Fin 1) u))
    + bv (ix2 (0 : Fin 1) (0 : Fin 1))

/-- The whole logits array from the six operand arrays. -/
def logitsOf (x : S32x2048x1024.Idx → EReal) (w : S1024x1024.Idx → EReal) (b1 : S1x1024.Idx → EReal)
    (ph : S32x1x1024.Idx → EReal) (v : S1x1024.Idx → EReal) (bv : S1x1.Idx → EReal) : S32x2048x1.Idx → EReal :=
  fun i => logitAt x w b1 ph v bv ⟨(i 0).val, (i 0).isLt⟩ ⟨(i 1).val, (i 1).isLt⟩

/-- The body's stored block at an entry `y` is the logit at the array position `(b, t)`, whenever the loaded blocks
    agree with the arrays there: the features' row of the block with row `(b, t)` of the array, the hidden
    projection's loaded row with row `b`, the resident operands with themselves. -/
theorem block_entry (x0 : FVec Ideal S1x512x1024 .f32) (w1 : FVec Ideal S1024x1024 .bf16) (b1 : FVec Ideal S1x1024 .f32)
    (ph : FVec Ideal S1x1x1024 .f32) (v : FVec Ideal S1x1024 .f32) (bv : FVec Ideal S1x1 .f32)
    (X : S32x2048x1024.Idx → EReal) (Wm : S1024x1024.Idx → EReal) (B1 : S1x1024.Idx → EReal)
    (PH : S32x1x1024.Idx → EReal) (Vv : S1x1024.Idx → EReal) (BV : S1x1.Idx → EReal)
    (y : S1x512x1.Idx) (b : Fin 32) (t : Fin 2048)
    (hx : ∀ d : Fin 1024, x0 (ix3 (0 : Fin 1) (⟨(y 1).val, (y 1).isLt⟩ : Fin 512) d) = X (ix3 b t d))
    (hw : ∀ (d u : Fin 1024), w1 (ix2 d u) = Wm (ix2 d u))
    (hb1 : ∀ u : Fin 1024, b1 (ix2 (0 : Fin 1) u) = B1 (ix2 (0 : Fin 1) u))
    (hph : ∀ u : Fin 1024, ph (ix3 (0 : Fin 1) (0 : Fin 1) u) = PH (ix3 b (0 : Fin 1) u))
    (hv : ∀ u : Fin 1024, v (ix2 (0 : Fin 1) u) = Vv (ix2 (0 : Fin 1) u))
    (hbv : bv (ix2 (0 : Fin 1) (0 : Fin 1)) = BV (ix2 (0 : Fin 1) (0 : Fin 1))) :
    k0_pay1 (F := Ideal) x0 w1 b1 ph v bv y = logitAt X Wm B1 PH Vv BV b t := by
  have hy : y = ix3 (0 : Fin 1) (⟨(y 1).val, (y 1).isLt⟩ : Fin 512) (0 : Fin 1) := by
    funext a
    apply Fin.ext
    match a with
    | ⟨0, _⟩ => have h : (y 0).val < 1 := (y 0).isLt; show (y 0).val = 0; omega
    | ⟨1, _⟩ => rfl
    | ⟨2, _⟩ => have h : (y 2).val < 1 := (y 2).isLt; show (y 2).val = 0; omega
  rw [hy, Payloads.logits_row]
  unfold logitAt
  refine congrArg₂ (· + ·) (Finset.sum_congr rfl fun u _ => ?_) hbv
  refine congrArg₂ (· * ·) (congrArg Ideal.tanh ?_) (hv u)
  refine congrArg₂ (· + ·) (congrArg₂ (· + ·) (Finset.sum_congr rfl fun d _ => ?_) (hb1 u)) (hph u)
  rw [hx d, hw d u]

/-- The printed index maps over the grid: the features' block and the hidden projection's row move with the output's
    block, the resident operands stay at their one block, and the output's block indices stay in range. -/
theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = win0_6.index t (0 : Fin 3) ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (2 : Fin 3) = 0 ∧ win0_6.index t (0 : Fin 3) < 32 ∧ win0_6.index t (1 : Fin 3) < 4 :=
  (by decide +kernel : ∀ t : Fin grid0.N, _)

/-- Every block of the logits array is some point's. -/
theorem idx_onto : ∀ (q0 : Fin 32) (q1 : Fin 4), ∃ t : Fin cfg0.N, win0_6.index t = ![q0.val, q1.val, 0] :=
  (by decide +kernel : ∀ (q0 : Fin 32) (q1 : Fin 4), ∃ t : Fin grid0.N, win0_6.index t = ![q0.val, q1.val, 0])

/-- What point `t` writes back is block `t` of the logits of the operand arrays as the region finds them. -/
theorem flushed_eq (c : Dev nD) (t : Fin cfg0.N) :
    (dat0 V c).flushed 6 t = ((cfg0.win 6).blk t).view.read (Elt Ideal)
      (logitsOf (V c main_arg0) (V c main_v5) (V c main_v6) (V c main_v4) (V c main_v7) (V c main_v8)) := by
  show (cfg0.win 6).cut (grid0.coords t) ((dat0 V c).after 6 t) = _
  rw [after0_6]
  unfold out0_6
  rw [View.canon_unit_zero hz3]
  simp only [View.ld_unit_zero (S := S1x512x1024) hz3, View.ld_unit_zero (S := S1024x1024) hz2, View.ld_unit_zero (S := S1x1024) hz2,
    View.ld_unit_zero (S := S1x1x1024) hz3, View.ld_unit_zero (S := S1x1) hz2]
  obtain ⟨e00, e01, e02, e10, e11, e20, e21, e30, e31, e32, e40, e41, e50, e51, e62, l0, l1⟩ := idx_facts t
  funext y
  have hy0 : (y 0).val < 1 := (y 0).isLt
  have hy1 : (y 1).val < 512 := (y 1).isLt
  have hy2 : (y 2).val < 1 := (y 2).isLt
  show k0_pay1 (F := Ideal) (iblk0 V c 0 t) (iblk0 V c 1 t) (iblk0 V c 2 t) (iblk0 V c 3 t) (iblk0 V c 4 t) (iblk0 V c 5 t) y
    = logitAt (V c main_arg0) (V c main_v5) (V c main_v6) (V c main_v4) (V c main_v7) (V c main_v8)
        ⟨(((cfg0.win 6).blk t).view.emb y 0).val, _⟩ ⟨(((cfg0.win 6).blk t).view.emb y 1).val, _⟩
  refine block_entry _ _ _ _ _ _ _ _ _ _ _ _ y _ _ (fun d => ?_) (fun d u => ?_) (fun u => ?_) (fun u => ?_) (fun u => ?_) ?_
  · show V c main_arg0 (((cfg0.win 0).blk t).view.emb _) = V c main_arg0 _
    refine congrArg (V c main_arg0) (funext fun a => Fin.ext ?_)
    match a with
    | ⟨0, _⟩ => show win0_0.index t (0 : Fin 3) * 1 + 1 * 0 = win0_6.index t (0 : Fin 3) * 1 + 1 * (y 0).val; omega
    | ⟨1, _⟩ => show win0_0.index t (1 : Fin 3) * 512 + 1 * (y 1).val = win0_6.index t (1 : Fin 3) * 512 + 1 * (y 1).val; omega
    | ⟨2, _⟩ => show win0_0.index t (2 : Fin 3) * 1024 + 1 * d.val = d.val; omega
  · show V c main_v5 (((cfg0.win 1).blk t).view.emb _) = V c main_v5 _
    refine congrArg (V c main_v5) (funext fun a => Fin.ext ?_)
    match a with
    | ⟨0, _⟩ => show win0_1.index t (0 : Fin 2) * 1024 + 1 * d.val = d.val; omega
    | ⟨1, _⟩ => show win0_1.index t (1 : Fin 2) * 1024 + 1 * u.val = u.val; omega
  · show V c main_v6 (((cfg0.win 2).blk t).view.emb _) = V c main_v6 _
    refine congrArg (V c main_v6) (funext fun a => Fin.ext ?_)
    match a with
    | ⟨0, _⟩ => show win0_2.index t (0 : Fin 2) * 1 + 1 * 0 = 0; omega
    | ⟨1, _⟩ => show win0_2.index t (1 : Fin 2) * 1024 + 1 * u.val = u.val; omega
  · show V c main_v4 (((cfg0.win 3).blk t).view.emb _) = V c main_v4 _
    refine congrArg (V c main_v4) (funext fun a => Fin.ext ?_)
    match a with
    | ⟨0, _⟩ => show win0_3.index t (0 : Fin 3) * 1 + 1 * 0 = win0_6.index t (0 : Fin 3) * 1 + 1 * (y 0).val; omega
    | ⟨1, _⟩ => show win0_3.index t (1 : Fin 3) * 1 + 1 * 0 = 0; omega
    | ⟨2, _⟩ => show win0_3.index t (2 : Fin 3) * 1024 + 1 * u.val = u.val; omega
  · show V c main_v7 (((cfg0.win 4).blk t).view.emb _) = V c main_v7 _
    refine congrArg (V c main_v7) (funext fun a => Fin.ext ?_)
    match a with
    | ⟨0, _⟩ => show win0_4.index t (0 : Fin 2) * 1 + 1 * 0 = 0; omega
    | ⟨1, _⟩ => show win0_4.index t (1 : Fin 2) * 1024 + 1 * u.val = u.val; omega
  · show V c main_v8 (((cfg0.win 5).blk t).view.emb _) = V c main_v8 _
    refine congrArg (V c main_v8) (funext fun a => Fin.ext ?_)
    match a with
    | ⟨0, _⟩ => show win0_5.index t (0 : Fin 2) * 1 + 1 * 0 = 0; omega
    | ⟨1, _⟩ => show win0_5.index t (1 : Fin 2) * 1 + 1 * 0 = 0; omega

/-- An index of the logits array is in point `t`'s block iff each coordinate is in the block's range on its axis. -/
theorem mem_blk (t : Fin cfg0.N) (i : S32x2048x1.Idx) :
    i ∈ ((cfg0.win 6).blk t).view.set ↔ ∀ a : Fin 3, win0_6.index t a * S1x512x1.size a ≤ (i a).val ∧ (i a).val < win0_6.index t a * S1x512x1.size a + S1x512x1.size a := by
  show i ∈ ((View.whole main_v9).slice (win0_6.rect t)).set ↔ _
  rw [View.set_slice_whole, Rect.mem_set_unit]
  exact Iff.rfl

/-- Every index of the logits array is in the block of the point at batch row `i 0` and time block `i 1 / 512`. -/
theorem covered (i : S32x2048x1.Idx) :
    ∃ t : Fin cfg0.N, (cfg0.win 6).flush t = true ∧ i ∈ ((cfg0.win 6).blk t).view.set := by
  have hi0 : (i 0).val < 32 := (i 0).isLt
  have hi1 : (i 1).val < 2048 := (i 1).isLt
  have hi2 : (i 2).val < 1 := (i 2).isLt
  obtain ⟨t, ht⟩ := idx_onto ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1 ≤ (i 2).val ∧ (i 2).val < win0_6.index t (2 : Fin 3) * 1 + 1; omega

/-- The logits array after the region: the logits of the six operand arrays as the region finds them. -/
theorem logits_final (c : Dev nD) :
    (dat0 V c).arrAt 6 cfg0.N
      = logitsOf (V c main_arg0) (V c main_v5) (V c main_v6) (V c main_v4) (V c main_v7) (V c main_v8) :=
  (dat0 V c).arrAt_eq_of_cover 6 _ (fun t _ => flushed_eq V c t) covered

end Cert.KernelIdeal.LogitsRegion

end
-- ==== Proof.ContextCases.lean ====
/-
  The context region's two cases, read as values. At a point that starts a batch row's run of four time blocks the
  body first stores zeros in the accumulator's buffer, reads them back, and stores the zeros plus the block's weighted
  sum of feature rows; at every other point it stores what the buffer held plus that block's weighted sum. At every
  point it stores the block's attention weights. Each found output is the covering store's payload of the loaded
  blocks, whatever the staging buffers are.
-/
import proofs.«125012_j4870492914109_2_alg».proof.Proof.Gen.KernelIdeal.Frame
import proofs.«125012_j4870492914109_2_alg».proof.Proof.Payloads
import Idealize.ShloMosaic.Lib.Pipeline.Value
import Idealize.ShloMosaic.Lib.ValueIdx
import Idealize.ShloMosaic.Lib.Tactic

set_option maxRecDepth 16384

noncomputable section

open scoped BigOperators

namespace Cert.KernelIdeal.ContextCases

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)

variable {F : FTy → Type} [FloatOps F]

theorem hz3 : (![0, 0, 0] : Fin 3 → Nat) = fun _ => 0 := funext fun a => by fin_cases a <;> rfl

/-- A point that continues a run: the accumulator's buffer, holding `xo`, ends at the update of `xo`. -/
theorem acc_cont (c : Dev nD) (i : grid1.Coords) (a2 : Memref sig .tc .vmem S1x512x1024 .f32) (h2 : a2.IsWhole) (a3 : Memref sig .tc .vmem S1x512x1 .f32) (h3 : a3.IsWhole) (a4 : Memref sig .tc .vmem S1x1x1 .f32) (h4 : a4.IsWhole) (a5 : Memref sig .tc .vmem S1x1x1 .f32) (h5 : a5.IsWhole) (a6 : Memref sig .tc .vmem S1x512x1 .f32) (h6 : a6.IsWhole) (a7 : Memref sig .tc .vmem S1x1x1024 .f32) (h7 : a7.IsWhole) (hc : ¬cond1_0 i)
    (x0 : Vec F S1x512x1024 .f32) (x1 : Vec F S1x512x1 .f32) (x2 : Vec F S1x1x1 .f32) (x3 : Vec F S1x1x1 .f32) (xo : Vec F S1x1x1024 .f32) :
    out1_B_5 c i a2 h2 a3 h3 a4 h4 a5 h5 a6 h6 a7 h7 hc x0 x1 x2 x3 xo = k1_pay4 x2 x3 x1 x0 xo := by
  unfold out1_B_5
  rw [View.read_writes_eq_canon _ _ _ (cover1_B_5 c i a2 h2 a3 h3 a4 h4 a5 h5 a6 h6 a7 h7 hc x0 x1 x2 x3 xo)]
  unfold kernelRun1_B
  dsimp only
  rw [View.canon_unit_zero hz3]
  simp only [View.readAt_eq_ld, h2.read_unread, h3.read_unread, h4.read_unread, h5.read_unread, h7.read_unread,
    View.ld_unit_zero (S := S1x512x1024) hz3, View.ld_unit_zero (S := S1x512x1) hz3, View.ld_unit_zero (S := S1x1x1) hz3,
    View.ld_unit_zero (S := S1x1x1024) hz3]

/-- A point that continues a run: the weights' buffer ends at the block's attention weights. -/
theorem weights_cont (c : Dev nD) (i : grid1.Coords) (a2 : Memref sig .tc .vmem S1x512x1024 .f32) (h2 : a2.IsWhole) (a3 : Memref sig .tc .vmem S1x512x1 .f32) (h3 : a3.IsWhole) (a4 : Memref sig .tc .vmem S1x1x1 .f32) (h4 : a4.IsWhole) (a5 : Memref sig .tc .vmem S1x1x1 .f32) (h5 : a5.IsWhole) (a6 : Memref sig .tc .vmem S1x512x1 .f32) (h6 : a6.IsWhole) (a7 : Memref sig .tc .vmem S1x1x1024 .f32) (h7 : a7.IsWhole) (hc : ¬cond1_0 i)
    (x0 : Vec F S1x512x1024 .f32) (x1 : Vec F S1x512x1 .f32) (x2 : Vec F S1x1x1 .f32) (x3 : Vec F S1x1x1 .f32) (xo : Vec F S1x1x1024 .f32) :
    out1_B_4 c i a2 h2 a3 h3 a4 h4 a5 h5 a6 h6 a7 h7 hc x0 x1 x2 x3 xo = k1_pay3 x2 x3 x1 := by
  unfold out1_B_4
  rw [View.read_writes_eq_canon _ _ _ (cover1_B_4 c i a2 h2 a3 h3 a4 h4 a5 h5 a6 h6 a7 h7 hc x0 x1 x2 x3 xo)]
  unfold kernelRun1_B
  dsimp only
  rw [View.canon_unit_zero hz3]
  simp only [View.readAt_eq_ld, h3.read_unread, h4.read_unread, h5.read_unread,
    View.ld_unit_zero (S := S1x512x1) hz3, View.ld_unit_zero (S := S1x1x1) hz3]

/-- A point that starts a run: the weights' buffer ends at the block's attention weights. -/
theorem weights_start (c : Dev nD) (i : grid1.Coords) (a2 : Memref sig .tc .vmem S1x512x1024 .f32) (h2 : a2.IsWhole) (a3 : Memref sig .tc .vmem S1x512x1 .f32) (h3 : a3.IsWhole) (a4 : Memref sig .tc .vmem S1x1x1 .f32) (h4 : a4.IsWhole) (a5 : Memref sig .tc .vmem S1x1x1 .f32) (h5 : a5.IsWhole) (a6 : Memref sig .tc .vmem S1x512x1 .f32) (h6 : a6.IsWhole) (a7 : Memref sig .tc .vmem S1x1x1024 .f32) (h7 : a7.IsWhole) (hc : cond1_0 i)
    (x0 : Vec F S1x512x1024 .f32) (x1 : Vec F S1x512x1 .f32) (x2 : Vec F S1x1x1 .f32) (x3 : Vec F S1x1x1 .f32) :
    out1_A_4 c i a2 h2 a3 h3 a4 h4 a5 h5 a6 h6 a7 h7 hc x0 x1 x2 x3 = k1_pay3 x2 x3 x1 := by
  unfold out1_A_4
  rw [View.read_writes_eq_canon _ _ _ (cover1_A_4 c i a2 h2 a3 h3 a4 h4 a5 h5 a6 h6 a7 h7 hc x0 x1 x2 x3)]
  unfold kernelRun1_A
  dsimp only
  rw [View.canon_unit_zero hz3]
  simp only [View.readAt_eq_ld, h3.read_unread, h4.read_unread, h5.read_unread,
    View.ld_unit_zero (S := S1x512x1) hz3, View.ld_unit_zero (S := S1x1x1) hz3]

/-- A point that starts a run: the accumulator's buffer ends at the update of the zeros just stored there. -/
theorem acc_start (c : Dev nD) (i : grid1.Coords) (a2 : Memref sig .tc .vmem S1x512x1024 .f32) (h2 : a2.IsWhole) (a3 : Memref sig .tc .vmem S1x512x1 .f32) (h3 : a3.IsWhole) (a4 : Memref sig .tc .vmem S1x1x1 .f32) (h4 : a4.IsWhole) (a5 : Memref sig .tc .vmem S1x1x1 .f32) (h5 : a5.IsWhole) (a6 : Memref sig .tc .vmem S1x512x1 .f32) (h6 : a6.IsWhole) (a7 : Memref sig .tc .vmem S1x1x1024 .f32) (h7 : a7.IsWhole) (hc : cond1_0 i)
    (x0 : Vec F S1x512x1024 .f32) (x1 : Vec F S1x512x1 .f32) (x2 : Vec F S1x1x1 .f32) (x3 : Vec F S1x1x1 .f32) :
    out1_A_5 c i a2 h2 a3 h3 a4 h4 a5 h5 a6 h6 a7 h7 hc x0 x1 x2 x3 = k1_pay4 x2 x3 x1 x0 (k1_pay1 (F := F)) := by
  unfold out1_A_5
  rw [View.read_writes_eq_canon _ _ _ (cover1_A_5 c i a2 h2 a3 h3 a4 h4 a5 h5 a6 h6 a7 h7 hc x0 x1 x2 x3)]
  unfold kernelRun1_A
  dsimp only
  sl_unfold_words
  rw [View.canon_cons_unit_zero (S := S1x1x1024) hz3, View.readCov_unit_zero (S := S1x1x1024) _ hz3]
  simp only [View.readAt_eq_ld, h2.read_unread, h3.read_unread, h4.read_unread, h5.read_unread,
    View.ld_unit_zero (S := S1x512x1024) hz3, View.ld_unit_zero (S := S1x512x1) hz3, View.ld_unit_zero (S := S1x1x1) hz3,
    View.ld_unit_zero (S := S1x1x1024) hz3]

end Cert.KernelIdeal.ContextCases

end
-- ==== Proof.ContextWeights.lean ====
/-
  The context region's attention weights, read as values. Its grid is 32 batch rows by 4 blocks of 512 time steps;
  point n = 4b + j reads block (b, j) of the features and of the logits and the two scalars of batch row b (the row
  maximum and the sum of exponentials), and writes back block (b, j) of the [32,2048,1] array of attention weights.
  Every point writes back and the blocks tile the array, so the array ends as
      weight[b,t] = exp(logit[b,t] - max[b]) / sum[b].
-/
import proofs.«125012_j4870492914109_2_alg».proof.Proof.Gen.KernelIdeal.Frame
import proofs.«125012_j4870492914109_2_alg».proof.Proof.Payloads
import proofs.«125012_j4870492914109_2_alg».proof.Proof.ContextCases

import Idealize.ShloMosaic.Lib.Pipeline.Value
import Idealize.ShloMosaic.Lib.ValueIdx

set_option maxRecDepth 16384

noncomputable section

open scoped BigOperators

namespace Cert.KernelIdeal.ContextRegion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- One attention weight from the logits, the row maxima and the sums of exponentials. -/
def weightAt (L : S32x2048x1.Idx → EReal) (M : S32x1x1.Idx → EReal) (S : S32x1x1.Idx → EReal) (b : Fin 32) (t : Fin 2048) : EReal :=
  Ideal.div (Ideal.exp (L (ix3 b t (0 : Fin 1)) - M (ix3 b (0 : Fin 1) (0 : Fin 1)))) (S (ix3 b (0 : Fin 1) (0 : Fin 1)))

/-- The whole array of attention weights. -/
def weightsOf (L : S32x2048x1.Idx → EReal) (M : S32x1x1.Idx → EReal) (S : S32x1x1.Idx → EReal) : S32x2048x1.Idx → EReal :=
  fun i => weightAt L M S ⟨(i 0).val, (i 0).isLt⟩ ⟨(i 1).val, (i 1).isLt⟩

/-- The printed index maps over the grid: point n is batch row n / 4 and time block n % 4. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = t.val % 4 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = 0 ∧ win1_3.index t (2 : Fin 3) = 0
    ∧ win1_4.index t (0 : Fin 3) = t.val / 4 ∧ win1_4.index t (1 : Fin 3) = t.val % 4 ∧ win1_4.index t (2 : Fin 3) = 0
    ∧ win1_5.index t (0 : Fin 3) = t.val / 4 ∧ win1_5.index t (1 : Fin 3) = 0 ∧ win1_5.index t (2 : Fin 3) = 0 :=
  (by decide +kernel : ∀ t : Fin grid1.N, _)

/-- The block's weight at row `r` is the array's weight at `(b, t)` when the loaded logit and scalars are the arrays' there. -/
theorem weight_entry (mx sm : FVec Ideal S1x1x1 .f32) (lg : FVec Ideal S1x512x1 .f32)
    (L : S32x2048x1.Idx → EReal) (M : S32x1x1.Idx → EReal) (S : S32x1x1.Idx → EReal) (r : Fin 512) (b : Fin 32) (t : Fin 2048)
    (hl : lg (ix3 (0 : Fin 1) r (0 : Fin 1)) = L (ix3 b t (0 : Fin 1)))
    (hm : mx (ix3 (0 : Fin 1) (0 : Fin 1) (0 : Fin 1)) = M (ix3 b (0 : Fin 1) (0 : Fin 1)))
    (hs : sm (ix3 (0 : Fin 1) (0 : Fin 1) (0 : Fin 1)) = S (ix3 b (0 : Fin 1) (0 : Fin 1))) :
    k1_pay2 (F := Ideal) mx sm lg (ix2 r (0 : Fin 1)) = weightAt L M S b t := by
  rw [Payloads.weight_row, hl, hm, hs]
  rfl

/-- At point `t`, row `r` of the block's weights is the weight at batch row t / 4, time 512 (t % 4) + r. -/
theorem point_weight (c : Dev nD) (t : Fin cfg1.N) (r : Fin 512) (hb : t.val / 4 < 32) (ht : 512 * (t.val % 4) + r.val < 2048) :
    k1_pay2 (F := Ideal) (iblk1 V c 2 t) (iblk1 V c 3 t) (iblk1 V c 1 t) (ix2 r (0 : Fin 1))
      = weightAt (V c main_v9) (V c main_v11) (V c main_v16) ⟨t.val / 4, hb⟩ ⟨512 * (t.val % 4) + r.val, ht⟩ := by
  obtain ⟨e00, e01, e02, e10, e11, e12, e20, e21, e22, e30, e31, e32, e40, e41, e42, e50, e51, e52⟩ := idx_facts t
  refine weight_entry _ _ _ _ _ _ r _ _ ?_ ?_ ?_
  · show V c main_v9 (((cfg1.win 1).blk t).view.emb _) = V c main_v9 _
    refine congrArg (V c main_v9) (funext fun a => Fin.ext ?_)
    match a with
    | ⟨0, _⟩ => show win1_1.index t (0 : Fin 3) * 1 + 1 * 0 = t.val / 4; omega
    | ⟨1, _⟩ => show win1_1.index t (1 : Fin 3) * 512 + 1 * r.val = 512 * (t.val % 4) + r.val; omega
    | ⟨2, _⟩ => show win1_1.index t (2 : Fin 3) * 1 + 1 * 0 = 0; omega
  · show V c main_v11 (((cfg1.win 2).blk t).view.emb _) = V c main_v11 _
    refine congrArg (V c main_v11) (funext fun a => Fin.ext ?_)
    match a with
    | ⟨0, _⟩ => show win1_2.index t (0 : Fin 3) * 1 + 1 * 0 = t.val / 4; omega
    | ⟨1, _⟩ => show win1_2.index t (1 : Fin 3) * 1 + 1 * 0 = 0; omega
    | ⟨2, _⟩ => show win1_2.index t (2 : Fin 3) * 1 + 1 * 0 = 0; omega
  · show V c main_v16 (((cfg1.win 3).blk t).view.emb _) = V c main_v16 _
    refine congrArg (V c main_v16) (funext fun a => Fin.ext ?_)
    match a with
    | ⟨0, _⟩ => show win1_3.index t (0 : Fin 3) * 1 + 1 * 0 = t.val / 4; omega
    | ⟨1, _⟩ => show win1_3.index t (1 : Fin 3) * 1 + 1 * 0 = 0; omega
    | ⟨2, _⟩ => show win1_3.index t (2 : Fin 3) * 1 + 1 * 0 = 0; omega

/-- After the body at any point the weights' buffer holds the block's attention weights. -/
theorem weights_at (c : Dev nD) (t : Fin cfg1.N) :
    (outsAt1 V c t.val t.isLt).1 = k1_pay3 (F := Ideal) (iblk1 V c 2 t) (iblk1 V c 3 t) (iblk1 V c 1 t) := by
  by_cases h0 : t.val % 4 = 0
  · rw [outsAt1_A V c t h0]
    dsimp only
    exact ContextCases.weights_start (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)
  · rw [outsAt1_B V c t h0]
    dsimp only
    exact ContextCases.weights_cont (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t)
      (outsAt1 V c (t.val - 1) (Nat.lt_of_le_of_lt (Nat.sub_le _ _) t.isLt)).2

/-- What point `t` writes back to the weights' array is block `t` of the weights of the operand arrays. -/
theorem flushed_weights (c : Dev nD) (t : Fin cfg1.N) :
    (dat1 V c).flushed 4 t = ((cfg1.win 4).blk t).view.read (Elt Ideal)
      (weightsOf (V c main_v9) (V c main_v11) (V c main_v16)) := by
  show (cfg1.win 4).cut (grid1.coords t) ((dat1 V c).after 4 t) = _
  rw [after1_4, weights_at]
  obtain ⟨e00, e01, e02, e10, e11, e12, e20, e21, e22, e30, e31, e32, e40, e41, e42, e50, e51, e52⟩ := idx_facts t
  have hN : t.val < 128 := lt_of_lt_of_eq t.isLt N_1
  funext y
  have hy0 : (y 0).val < 1 := (y 0).isLt
  have hy1 : (y 1).val < 512 := (y 1).isLt
  have hy2 : (y 2).val < 1 := (y 2).isLt
  have hy : y = ix3 (0 : Fin 1) (⟨(y 1).val, hy1⟩ : Fin 512) (0 : Fin 1) := by
    funext a
    apply Fin.ext
    match a with
    | ⟨0, _⟩ => show (y 0).val = 0; omega
    | ⟨1, _⟩ => rfl
    | ⟨2, _⟩ => show (y 2).val = 0; omega
  show k1_pay3 (F := Ideal) (iblk1 V c 2 t) (iblk1 V c 3 t) (iblk1 V c 1 t) y
    = weightAt (V c main_v9) (V c main_v11) (V c main_v16)
        ⟨(((cfg1.win 4).blk t).view.emb y 0).val, _⟩ ⟨(((cfg1.win 4).blk t).view.emb y 1).val, _⟩
  have hb : t.val / 4 < 32 := by omega
  have ht : 512 * (t.val % 4) + (y 1).val < 2048 := by omega
  refine ((congrArg (k1_pay3 (F := Ideal) (iblk1 V c 2 t) (iblk1 V c 3 t) (iblk1 V c 1 t)) hy).trans
    ((Payloads.weight_store _ _ _ _).trans (point_weight V c t ⟨(y 1).val, hy1⟩ hb ht))).trans ?_
  refine congrArg₂ (weightAt (V c main_v9) (V c main_v11) (V c main_v16)) (Fin.ext ?_) (Fin.ext ?_)
  · show t.val / 4 = win1_4.index t (0 : Fin 3) * 1 + 1 * (y 0).val; omega
  · show 512 * (t.val % 4) + (y 1).val = win1_4.index t (1 : Fin 3) * 512 + 1 * (y 1).val; omega

/-- An index of the weights' array is in point `t`'s block iff each coordinate is in the block's range on its axis. -/
theorem mem_blk4 (t : Fin cfg1.N) (i : S32x2048x1.Idx) :
    i ∈ ((cfg1.win 4).blk t).view.set ↔ ∀ a : Fin 3, win1_4.index t a * S1x512x1.size a ≤ (i a).val ∧ (i a).val < win1_4.index t a * S1x512x1.size a + S1x512x1.size a := by
  show i ∈ ((View.whole main_v17_0).slice (win1_4.rect t)).set ↔ _
  rw [View.set_slice_whole, Rect.mem_set_unit]
  exact Iff.rfl

/-- Every index `(b, t, 0)` of the weights' array is in the block of point 4 b + t / 512. -/
theorem covered4 (i : S32x2048x1.Idx) :
    ∃ t : Fin cfg1.N, (cfg1.win 4).flush t = true ∧ i ∈ ((cfg1.win 4).blk t).view.set := by
  have hi0 : (i 0).val < 32 := (i 0).isLt
  have hi1 : (i 1).val < 2048 := (i 1).isLt
  have hi2 : (i 2).val < 1 := (i 2).isLt
  have hN : cfg1.N = 128 := N_1
  let t : Fin cfg1.N := ⟨4 * (i 0).val + (i 1).val / 512, by omega⟩
  have htv : t.val = 4 * (i 0).val + (i 1).val / 512 := rfl
  obtain ⟨e00, e01, e02, e10, e11, e12, e20, e21, e22, e30, e31, e32, e40, e41, e42, e50, e51, e52⟩ := idx_facts t
  refine ⟨t, flush1_4 t, ?_⟩
  rw [mem_blk4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 1 ≤ (i 2).val ∧ (i 2).val < win1_4.index t (2 : Fin 3) * 1 + 1; omega

/-- The array of attention weights after the region. -/
theorem weights_final (c : Dev nD) :
    (dat1 V c).arrAt 4 cfg1.N = weightsOf (V c main_v9) (V c main_v11) (V c main_v16) :=
  (dat1 V c).arrAt_eq_of_cover 4 _ (fun t _ => flushed_weights V c t) covered4

end Cert.KernelIdeal.ContextRegion

end
-- ==== Proof.ContextAcc.lean ====
/-
  The context region's accumulator, read as values. The accumulator's block (batch row b, all 1024 lanes) stays in
  its buffer over the four points of row b's run: the run's first point stores the zeros plus its block's weighted
  sum of feature rows, each later point adds its own, and the run's last point writes the block back. So the
  [32,1,1024] array ends, at (b, 0, d), as 0 + the sum over the run's four blocks of
      sum over the block's 512 time steps t of weight[b,t] * x[b,t,d].
-/
import proofs.«125012_j4870492914109_2_alg».proof.Proof.Gen.KernelIdeal.Frame
import proofs.«125012_j4870492914109_2_alg».proof.Proof.Payloads
import proofs.«125012_j4870492914109_2_alg».proof.Proof.ContextCases
import proofs.«125012_j4870492914109_2_alg».proof.Proof.ContextWeights
import Idealize.ShloMosaic.Lib.Pipeline.Value
import Idealize.ShloMosaic.Lib.ValueIdx

set_option maxRecDepth 16384

noncomputable section

open scoped BigOperators

namespace Cert.KernelIdeal.ContextRegion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Block `n`'s weighted sum of feature rows at lane `d`: batch row n / 4, time steps 512 (n % 4) … 512 (n % 4) + 511
    (zero past the grid's 128 points, which no run reaches). -/
def contrib (X : S32x2048x1024.Idx → EReal) (L : S32x2048x1.Idx → EReal) (M : S32x1x1.Idx → EReal) (S : S32x1x1.Idx → EReal)
    (n : ℕ) (d : Fin 1024) : EReal :=
  if h : n < 128 then
    ∑ r : Fin 512, weightAt L M S (⟨n / 4, by omega⟩ : Fin 32) (⟨512 * (n % 4) + r.val, by have := r.isLt; omega⟩ : Fin 2048)
      * X (ix3 (⟨n / 4, by omega⟩ : Fin 32) (⟨512 * (n % 4) + r.val, by have := r.isLt; omega⟩ : Fin 2048) d)
  else 0

/-- The accumulator array: at batch row b and lane d, zero plus the four blocks' contributions of row b's run. -/
def contextOf (X : S32x2048x1024.Idx → EReal) (L : S32x2048x1.Idx → EReal) (M : S32x1x1.Idx → EReal) (S : S32x1x1.Idx → EReal) :
    S32x1x1024.Idx → EReal :=
  fun i => 0 + ∑ s ∈ Finset.range 4, contrib X L M S (4 * (i 0).val + s) ⟨(i 2).val, (i 2).isLt⟩

/-- At point `t` the block's weighted sum of feature rows is block `t`'s contribution. -/
theorem point_contrib (c : Dev nD) (t : Fin cfg1.N) (d : Fin 1024) :
    ∑ r : Fin 512, k1_pay2 (F := Ideal) (iblk1 V c 2 t) (iblk1 V c 3 t) (iblk1 V c 1 t) (ix2 r (0 : Fin 1))
        * iblk1 V c 0 t (ix3 (0 : Fin 1) r d)
      = contrib (V c main_arg0) (V c main_v9) (V c main_v11) (V c main_v16) t.val d := by
  have hN : t.val < 128 := lt_of_lt_of_eq t.isLt N_1
  obtain ⟨e00, e01, e02, e10, e11, e12, e20, e21, e22, e30, e31, e32, e40, e41, e42, e50, e51, e52⟩ := idx_facts t
  unfold contrib
  rw [dif_pos hN]
  refine Finset.sum_congr rfl fun r _ => ?_
  have hr : r.val < 512 := r.isLt
  refine congrArg₂ (· * ·) (point_weight V c t r (by omega) (by omega)) ?_
  show V c main_arg0 (((cfg1.win 0).blk t).view.emb _) = V c main_arg0 _
  refine congrArg (V c main_arg0) (funext fun a => Fin.ext ?_)
  match a with
  | ⟨0, _⟩ => show win1_0.index t (0 : Fin 3) * 1 + 1 * 0 = t.val / 4; omega
  | ⟨1, _⟩ => show win1_0.index t (1 : Fin 3) * 512 + 1 * r.val = 512 * (t.val % 4) + r.val; omega
  | ⟨2, _⟩ => show win1_0.index t (2 : Fin 3) * 1024 + 1 * d.val = d.val; omega

/-- The accumulator's buffer after the body at point `n`, lane by lane. -/
def accLane (c : Dev nD) (n : ℕ) (h : n < cfg1.N) : Fin 1024 → EReal :=
  fun d => (outsAt1 V c n h).2 (ix3 (0 : Fin 1) (0 : Fin 1) d)

/-- At a run's first point the buffer ends at zero plus the block's contribution. -/
theorem acc_reset (c : Dev nD) (n : ℕ) (h : n < cfg1.N) (h0 : n % 4 = 0) :
    accLane V c n h = fun d => 0 + contrib (V c main_arg0) (V c main_v9) (V c main_v11) (V c main_v16) n d := by
  funext d
  show (outsAt1 V c (⟨n, h⟩ : Fin cfg1.N).val (⟨n, h⟩ : Fin cfg1.N).isLt).2 (ix3 (0 : Fin 1) (0 : Fin 1) d) = _
  rw [outsAt1_A V c ⟨n, h⟩ h0]
  dsimp only
  refine (congrFun (ContextCases.acc_start (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) ((hcond1_0 ⟨n, h⟩).mpr h0) (iblk1 V c 0 ⟨n, h⟩) (iblk1 V c 1 ⟨n, h⟩) (iblk1 V c 2 ⟨n, h⟩) (iblk1 V c 3 ⟨n, h⟩))
    (ix3 (0 : Fin 1) (0 : Fin 1) d)).trans ?_
  refine (Payloads.acc_store _ _ _ _ _ d).trans ?_
  exact congrArg₂ (· + ·) (Payloads.reset_store _) (point_contrib V c ⟨n, h⟩ d)

/-- At every later point of a run the buffer ends at what the point before left plus the block's contribution. -/
theorem acc_step (c : Dev nD) (n : ℕ) (h : n + 1 < cfg1.N) (hne : ¬(n + 1) % 4 = 0) :
    accLane V c (n + 1) h = fun d => accLane V c n (Nat.lt_of_succ_lt h) d + contrib (V c main_arg0) (V c main_v9) (V c main_v11) (V c main_v16) (n + 1) d := by
  funext d
  show (outsAt1 V c (⟨n + 1, h⟩ : Fin cfg1.N).val (⟨n + 1, h⟩ : Fin cfg1.N).isLt).2 (ix3 (0 : Fin 1) (0 : Fin 1) d) = _
  rw [outsAt1_B V c ⟨n + 1, h⟩ hne]
  dsimp only
  refine (congrFun (ContextCases.acc_cont (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (fun hh => hne ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩)
    (outsAt1 V c n (Nat.lt_of_succ_lt h)).2) (ix3 (0 : Fin 1) (0 : Fin 1) d)).trans ?_
  refine (Payloads.acc_store _ _ _ _ _ d).trans ?_
  exact congrArg₂ (· + ·) rfl (point_contrib V c ⟨n + 1, h⟩ d)

/-- At a run's last point the buffer holds zero plus the run's four contributions. -/
theorem acc_last (c : Dev nD) (t : Fin cfg1.N) (h3 : t.val % 4 = 3) (d : Fin 1024) :
    accLane V c t.val t.isLt d = 0 + ∑ s ∈ Finset.range 4, contrib (V c main_arg0) (V c main_v9) (V c main_v11) (V c main_v16) (4 * (t.val / 4) + s) d := by
  have h' : 4 * (t.val / 4) + t.val % 4 < cfg1.N := by rw [Nat.div_add_mod]; exact t.isLt
  have e1 := Pipeline.eq_accAt_of_mod (accLane V c) 4
    (fun n _ => fun d => 0 + contrib (V c main_arg0) (V c main_v9) (V c main_v11) (V c main_v16) n d)
    (fun n _ acc => fun d => acc d + contrib (V c main_arg0) (V c main_v9) (V c main_v11) (V c main_v16) n d)
    (fun n h hm => acc_reset V c n h hm) (fun n h hm => acc_step V c n h hm) (by decide) t.val t.isLt h'
  have e2 := Pipeline.accAt_add_apply
    (fun n (_ : n < cfg1.N) => fun d => 0 + contrib (V c main_arg0) (V c main_v9) (V c main_v11) (V c main_v16) n d)
    (fun n (_ : n < cfg1.N) acc => fun d => acc d + contrib (V c main_arg0) (V c main_v9) (V c main_v11) (V c main_v16) n d)
    (fun _ => (0 : EReal)) (contrib (V c main_arg0) (V c main_v9) (V c main_v11) (V c main_v16)) (4 * (t.val / 4)) 3
    (fun _ _ => rfl) (fun _ _ _ _ _ _ => rfl) (t.val % 4) (by omega) h' d
  refine ((congrFun e1 d).trans e2).trans ?_
  rw [h3]

/-- What a run's last point writes back is its block of the accumulator array. -/
theorem flushed_ctx (c : Dev nD) (t : Fin cfg1.N) (hf : (cfg1.win 5).flush t = true) :
    (dat1 V c).flushed 5 t = ((cfg1.win 5).blk t).view.read (Elt Ideal) (contextOf (V c main_arg0) (V c main_v9) (V c main_v11) (V c main_v16)) := by
  have h3 : t.val % 4 = 3 := (flush1_5 t).mp hf
  show (cfg1.win 5).cut (grid1.coords t) ((dat1 V c).after 5 t) = _
  rw [after1_5]
  obtain ⟨e00, e01, e02, e10, e11, e12, e20, e21, e22, e30, e31, e32, e40, e41, e42, e50, e51, e52⟩ := idx_facts t
  funext y
  have hy0 : (y 0).val < 1 := (y 0).isLt
  have hy1 : (y 1).val < 1 := (y 1).isLt
  have hy2 : (y 2).val < 1024 := (y 2).isLt
  have hy : y = ix3 (0 : Fin 1) (0 : Fin 1) (⟨(y 2).val, hy2⟩ : Fin 1024) := by
    funext a
    apply Fin.ext
    match a with
    | ⟨0, _⟩ => show (y 0).val = 0; omega
    | ⟨1, _⟩ => show (y 1).val = 0; omega
    | ⟨2, _⟩ => rfl
  show (outsAt1 V c t.val t.isLt).2 y
    = 0 + ∑ s ∈ Finset.range 4, contrib (V c main_arg0) (V c main_v9) (V c main_v11) (V c main_v16) (4 * (((cfg1.win 5).blk t).view.emb y 0).val + s)
        ⟨(((cfg1.win 5).blk t).view.emb y 2).val, _⟩
  refine ((congrArg (outsAt1 V c t.val t.isLt).2 hy).trans (acc_last V c t h3 ⟨(y 2).val, hy2⟩)).trans ?_
  have he0 : (((cfg1.win 5).blk t).view.emb y 0).val = t.val / 4 := by
    show win1_5.index t (0 : Fin 3) * 1 + 1 * (y 0).val = t.val / 4; omega
  have he2 : (((cfg1.win 5).blk t).view.emb y 2).val = (y 2).val := by
    show win1_5.index t (2 : Fin 3) * 1024 + 1 * (y 2).val = (y 2).val; omega
  refine congrArg (0 + ·) (Finset.sum_congr rfl fun s _ => ?_)
  refine congrArg₂ (contrib (V c main_arg0) (V c main_v9) (V c main_v11) (V c main_v16)) ?_ (Fin.ext he2.symm)
  rw [he0]

/-- An index of the accumulator array is in point `t`'s block iff each coordinate is in the block's range on its axis. -/
theorem mem_blk5 (t : Fin cfg1.N) (i : S32x1x1024.Idx) :
    i ∈ ((cfg1.win 5).blk t).view.set ↔ ∀ a : Fin 3, win1_5.index t a * S1x1x1024.size a ≤ (i a).val ∧ (i a).val < win1_5.index t a * S1x1x1024.size a + S1x1x1024.size a := by
  show i ∈ ((View.whole main_v17_1).slice (win1_5.rect t)).set ↔ _
  rw [View.set_slice_whole, Rect.mem_set_unit]
  exact Iff.rfl

/-- Every index `(b, 0, d)` of the accumulator array is in the block the last point of row b's run writes back. -/
theorem covered5 (i : S32x1x1024.Idx) :
    ∃ t : Fin cfg1.N, (cfg1.win 5).flush t = true ∧ i ∈ ((cfg1.win 5).blk t).view.set := by
  have hi0 : (i 0).val < 32 := (i 0).isLt
  have hi1 : (i 1).val < 1 := (i 1).isLt
  have hi2 : (i 2).val < 1024 := (i 2).isLt
  have hN : cfg1.N = 128 := N_1
  let t : Fin cfg1.N := ⟨4 * (i 0).val + 3, by omega⟩
  have htv : t.val = 4 * (i 0).val + 3 := rfl
  obtain ⟨e00, e01, e02, e10, e11, e12, e20, e21, e22, e30, e31, e32, e40, e41, e42, e50, e51, e52⟩ := idx_facts t
  refine ⟨t, (flush1_5 t).mpr (by omega), ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1 ≤ (i 1).val ∧ (i 1).val < win1_5.index t (1 : Fin 3) * 1 + 1; omega
  | ⟨2, _⟩ => show win1_5.index t (2 : Fin 3) * 1024 ≤ (i 2).val ∧ (i 2).val < win1_5.index t (2 : Fin 3) * 1024 + 1024; omega

/-- The accumulator array after the region. -/
theorem context_final (c : Dev nD) :
    (dat1 V c).arrAt 5 cfg1.N = contextOf (V c main_arg0) (V c main_v9) (V c main_v11) (V c main_v16) :=
  (dat1 V c).arrAt_eq_of_cover 5 _ (fun t hf => flushed_ctx V c t hf) covered5

end Cert.KernelIdeal.ContextRegion

end
-- ==== Proof.RefLogits.lean ====
/-
  The reference's logits stage read at an entry, at the ideal values: the logit of batch row b at time t is
      (sum over u of tanh((sum over d of x[b,t,d] * W1[d,u]) + b1[u] + (hidden . W2 + b2)[b,u]) * V[u,0]) + bv[0],
  each dot_general a plain sum over its one contracted axis, each broadcast read at the operand's entry.
-/
import proofs.«125012_j4870492914109_2_alg».proof.Proof.Gen.ReferenceIdeal.Read
import Idealize.ShloMosaic.Lib.ValueIdx
import Idealize.ShloMosaic.PureOps.Ideal.Laws

noncomputable section

open scoped BigOperators

namespace Cert.ReferenceIdeal.Spec

open Cert.ReferenceIdeal.Read Idealize.ShloMosaic Idealize.ShloMosaic.ValueIdx

/-- The reference's logit at (b, t, 0). -/
theorem ref_logit (x0 : Cert.ReferenceIdeal.S32x2048x1024.Idx → EReal) (x1 : Cert.ReferenceIdeal.S32x1024.Idx → EReal) (x2 : Cert.ReferenceIdeal.S1024x1024.Idx → EReal) (x3 : Cert.ReferenceIdeal.S1024.Idx → EReal)
    (x4 : Cert.ReferenceIdeal.S1024x1024.Idx → EReal) (x5 : Cert.ReferenceIdeal.S1024.Idx → EReal) (x6 : Cert.ReferenceIdeal.S1024x1.Idx → EReal) (x7 : Cert.ReferenceIdeal.S1.Idx → EReal) (b : Fin 32) (t : Fin 2048) :
    val_main_v15 (F := Ideal) x0 x1 x2 x3 x4 x5 x6 x7 (ix3 b t (0 : Fin 1))
      = (∑ u : Fin 1024, Ideal.tanh (((∑ d : Fin 1024, x0 (ix3 b t d) * x2 (ix2 d u)) + x3 (ix1 u))
            + val_main_v7 (F := Ideal) x1 x4 x5 (ix2 b u)) * x6 (ix2 u (0 : Fin 1)))
          + x7 (ix1 (0 : Fin 1)) := by
  rw [val_main_v15_apply, val_main_v12_apply, val_main_v14_apply, val_main_v13_apply]
  refine congrArg₂ (· + ·) (Finset.sum_congr rfl fun u _ => ?_) ?_
  · rw [val_main_v11_apply, val_main_v10_apply, val_main_v3_apply, val_main_v0_apply, val_main_v2_apply, val_main_v1_apply,
      val_main_v9_apply, val_main_v8_apply]
    have i1 : ∀ k : Fin 1024, lidx_main_v0 (lidx_main_v12 (ix3 b t (0 : Fin 1)) u) k = ix3 b t k := fun k =>
      funext fun a => Fin.ext (by match a with | ⟨0, _⟩ => rfl | ⟨1, _⟩ => rfl | ⟨2, _⟩ => rfl)
    have i2 : ∀ k : Fin 1024, ridx_main_v0 (lidx_main_v12 (ix3 b t (0 : Fin 1)) u) k = ix2 k u := fun k =>
      funext fun a => Fin.ext (by match a with | ⟨0, _⟩ => rfl | ⟨1, _⟩ => rfl)
    have i3 : idx_main_v1 (idx_main_v2 (lidx_main_v12 (ix3 b t (0 : Fin 1)) u)) = ix1 u :=
      funext fun a => Fin.ext (by match a with | ⟨0, _⟩ => rfl)
    have i4 : idx_main_v8 (idx_main_v9 (lidx_main_v12 (ix3 b t (0 : Fin 1)) u)) = ix2 b u :=
      funext fun a => Fin.ext (by match a with | ⟨0, _⟩ => rfl | ⟨1, _⟩ => rfl)
    have i5 : ridx_main_v12 (ix3 b t (0 : Fin 1)) u = ix2 u (0 : Fin 1) :=
      funext fun a => Fin.ext (by match a with | ⟨0, _⟩ => rfl | ⟨1, _⟩ => rfl)
    simp only [i1, i2, i3, i4, i5]
    rfl
  · exact congrArg x7 (funext fun a => Fin.ext (by match a with | ⟨0, _⟩ => rfl))

end Cert.ReferenceIdeal.Spec

end
-- ==== Proof.RefSoftmax.lean ====
/-
  The reference's softmax and weighted sum read at an entry, at the ideal values.
  * Its stabiliser max(-inf, max over t of logit) is the max over t itself: -inf is the least extended real.
  * weight[b,t] = exp(logit[b,t] - M[b]) / S[b], with M and S the broadcast row maxima and sums of exponentials.
  * context[b,d] = 0 + the sum over all 2048 time steps of weight[b,t] * x[b,t,d].
  And one fact about finite sums: a sum over 2048 consecutive indices is the sum of its four blocks of 512.
-/
import proofs.«125012_j4870492914109_2_alg».proof.Proof.Gen.ReferenceIdeal.Read
import Idealize.ShloMosaic.Lib.ValueIdx
import Idealize.ShloMosaic.PureOps.Ideal.Laws

noncomputable section

open scoped BigOperators

namespace Cert.ReferenceIdeal.Spec

open Cert.ReferenceIdeal.Read Idealize.ShloMosaic Idealize.ShloMosaic.ValueIdx

/-- The word of minus infinity is the least extended real. -/
theorem ofBits_neg_inf : Ideal.ofBits .f32 0xFF800000#32 = ⊥ := by simp [Ideal.ofBits, Ideal.ieee]

/-- The reference's stabiliser is its reduction: the maximum with minus infinity changes nothing. -/
theorem ref_max_eq (x0 : Cert.ReferenceIdeal.S32x2048x1024.Idx → EReal) (x1 : Cert.ReferenceIdeal.S32x1024.Idx → EReal) (x2 : Cert.ReferenceIdeal.S1024x1024.Idx → EReal) (x3 : Cert.ReferenceIdeal.S1024.Idx → EReal)
    (x4 : Cert.ReferenceIdeal.S1024x1024.Idx → EReal) (x5 : Cert.ReferenceIdeal.S1024.Idx → EReal) (x6 : Cert.ReferenceIdeal.S1024x1.Idx → EReal) (x7 : Cert.ReferenceIdeal.S1.Idx → EReal) :
    val_main_v18 (F := Ideal) x0 x1 x2 x3 x4 x5 x6 x7 = val_main_v16 (F := Ideal) x0 x1 x2 x3 x4 x5 x6 x7 := by
  funext j
  rw [val_main_v18_apply, val_main_v17_apply, val_main_cst_0_apply]
  show max (Ideal.ofBits .f32 0xFF800000#32) _ = _
  rw [ofBits_neg_inf]
  exact bot_sup_eq _

/-- The reference's attention weight at (b, t, 0). -/
theorem ref_weight (x0 : Cert.ReferenceIdeal.S32x2048x1024.Idx → EReal) (x1 : Cert.ReferenceIdeal.S32x1024.Idx → EReal) (x2 : Cert.ReferenceIdeal.S1024x1024.Idx → EReal) (x3 : Cert.ReferenceIdeal.S1024.Idx → EReal)
    (x4 : Cert.ReferenceIdeal.S1024x1024.Idx → EReal) (x5 : Cert.ReferenceIdeal.S1024.Idx → EReal) (x6 : Cert.ReferenceIdeal.S1024x1.Idx → EReal) (x7 : Cert.ReferenceIdeal.S1.Idx → EReal) (b : Fin 32) (t : Fin 2048) :
    val_main_v26 (F := Ideal) x0 x1 x2 x3 x4 x5 x6 x7 (ix3 b t (0 : Fin 1))
      = Ideal.div (Ideal.exp (val_main_v15 (F := Ideal) x0 x1 x2 x3 x4 x5 x6 x7 (ix3 b t (0 : Fin 1))
            - val_main_v19 (F := Ideal) x0 x1 x2 x3 x4 x5 x6 x7 (ix3 b (0 : Fin 1) (0 : Fin 1))))
          (val_main_v24 (F := Ideal) x0 x1 x2 x3 x4 x5 x6 x7 (ix3 b (0 : Fin 1) (0 : Fin 1))) := by
  rw [val_main_v26_apply, val_main_v22_apply, val_main_v21_apply, val_main_v20_apply, val_main_v25_apply]
  have j1 : idx_main_v20 (ix3 b t (0 : Fin 1)) = ix3 b (0 : Fin 1) (0 : Fin 1) :=
    funext fun a => Fin.ext (by match a with | ⟨0, _⟩ => rfl | ⟨1, _⟩ => rfl | ⟨2, _⟩ => rfl)
  have j2 : idx_main_v25 (ix3 b t (0 : Fin 1)) = ix3 b (0 : Fin 1) (0 : Fin 1) :=
    funext fun a => Fin.ext (by match a with | ⟨0, _⟩ => rfl | ⟨1, _⟩ => rfl | ⟨2, _⟩ => rfl)
  rw [j1, j2]
  rfl

/-- The reference's context vector at (b, d). -/
theorem ref_context (x0 : Cert.ReferenceIdeal.S32x2048x1024.Idx → EReal) (x1 : Cert.ReferenceIdeal.S32x1024.Idx → EReal) (x2 : Cert.ReferenceIdeal.S1024x1024.Idx → EReal) (x3 : Cert.ReferenceIdeal.S1024.Idx → EReal)
    (x4 : Cert.ReferenceIdeal.S1024x1024.Idx → EReal) (x5 : Cert.ReferenceIdeal.S1024.Idx → EReal) (x6 : Cert.ReferenceIdeal.S1024x1.Idx → EReal) (x7 : Cert.ReferenceIdeal.S1.Idx → EReal) (b : Fin 32) (d : Fin 1024) :
    val_main_v29 (F := Ideal) x0 x1 x2 x3 x4 x5 x6 x7 (ix2 b d)
      = 0 + ∑ k : Fin 2048, val_main_v26 (F := Ideal) x0 x1 x2 x3 x4 x5 x6 x7 (ix3 b k (0 : Fin 1)) * x0 (ix3 b k d) := by
  rw [val_main_v29_apply, val_main_cst_2_apply]
  refine congrArg₂ (· + ·) Ideal.ofBits_zero_f32 (Finset.sum_congr rfl fun k _ => ?_)
  rw [val_main_v28_apply, val_main_v27_apply]
  have j1 : idx_main_v29 (ix2 b d) k = ix3 b k d :=
    funext fun a => Fin.ext (by match a with | ⟨0, _⟩ => rfl | ⟨1, _⟩ => rfl | ⟨2, _⟩ => rfl)
  have j2 : idx_main_v27 (ix3 b k d) = ix3 b k (0 : Fin 1) :=
    funext fun a => Fin.ext (by match a with | ⟨0, _⟩ => rfl | ⟨1, _⟩ => rfl | ⟨2, _⟩ => rfl)
  rw [j1, j2]
  rfl

/-- A sum over 2048 consecutive indices is the sum of its four blocks of 512. -/
theorem sum_four_blocks {β : Type*} [AddCommMonoid β] (f : Fin 2048 → β) (g : ℕ → β)
    (hg : ∀ (s : ℕ) (hs : s < 4), g s = ∑ r : Fin 512, f ⟨512 * s + r.val, by have := r.isLt; omega⟩) :
    ∑ s ∈ Finset.range 4, g s = ∑ k : Fin 2048, f k := by
  rw [Finset.sum_range (n := 4) g]
  have e : ∑ k : Fin 2048, f k = ∑ p : Fin 4 × Fin 512, f (finProdFinEquiv p) :=
    (Equiv.sum_comp (finProdFinEquiv (m := 4) (n := 512)) f).symm
  rw [e, Fintype.sum_prod_type]
  refine Finset.sum_congr rfl fun s _ => ?_
  rw [hg s.val s.isLt]
  refine Finset.sum_congr rfl fun r _ => ?_
  refine congrArg f (Fin.ext ?_)
  show 512 * s.val + r.val = r.val + 512 * s.val
  omega

end Cert.ReferenceIdeal.Spec

end
-- ==== Proof.LibUnitAxes.lean ====
/-
  General facts about shape casts that only move a unit axis, read at an entry.

  * An [A, B] matrix viewed as [A, 1, B] reads, at (a, 0, b), the matrix at (a, b) (midUnit_apply).
  * An [A, 1, B] array viewed as an [A, B] matrix reads, at (a, b), the array at (a, 0, b) (dropMidUnit_apply).
  * A [K, 1] column viewed as a [1, K] row reads, at (0, k), the column at (k, 0) (colRow_apply).
-/
import Idealize.ShloMosaic.Lib.ValueIdx
import Idealize.ShloMosaic.Lib.Pipeline.Value

noncomputable section

namespace Cert.Lib.UnitAxes

open Idealize.ShloMosaic Idealize.ShloMosaic.ValueIdx

variable {α : Type} {A B K : Nat}

/-- An [A, B] matrix viewed as [A, 1, B]: entry (a, 0, b) is entry (a, b). -/
theorem midUnit_apply (x : (⟨2, ![A, B]⟩ : Shape).Idx → α) (h : (⟨2, ![A, B]⟩ : Shape).ShapeCasts ⟨3, ![A, 1, B]⟩)
    (a : Fin A) (b : Fin B) : shapeCast ⟨3, ![A, 1, B]⟩ x h (ix3 a (0 : Fin 1) b) = x (ix2 a b) :=
  shapeCast_apply x h (ix3 a (0 : Fin 1) b) (ix2 a b) (by
    rw [Shape.rowMajor_val_two, Shape.rowMajor_val_three]
    show a.val * B + b.val = (a.val * 1 + 0) * B + b.val
    rw [Nat.mul_one, Nat.add_zero])

/-- An [A, 1, B] array viewed as an [A, B] matrix: entry (a, b) is entry (a, 0, b). -/
theorem dropMidUnit_apply (x : (⟨3, ![A, 1, B]⟩ : Shape).Idx → α) (h : (⟨3, ![A, 1, B]⟩ : Shape).ShapeCasts ⟨2, ![A, B]⟩)
    (a : Fin A) (b : Fin B) : shapeCast ⟨2, ![A, B]⟩ x h (ix2 a b) = x (ix3 a (0 : Fin 1) b) :=
  shapeCast_apply x h (ix2 a b) (ix3 a (0 : Fin 1) b) (by
    rw [Shape.rowMajor_val_two, Shape.rowMajor_val_three]
    show (a.val * 1 + 0) * B + b.val = a.val * B + b.val
    rw [Nat.mul_one, Nat.add_zero])

/-- A [K, 1] column viewed as a [1, K] row: entry (0, k) is entry (k, 0). -/
theorem colRow_apply (x : (⟨2, ![K, 1]⟩ : Shape).Idx → α) (h : (⟨2, ![K, 1]⟩ : Shape).ShapeCasts ⟨2, ![1, K]⟩)
    (k : Fin K) : shapeCast ⟨2, ![1, K]⟩ x h (ix2 (0 : Fin 1) k) = x (ix2 k (0 : Fin 1)) :=
  shapeCast_apply x h (ix2 (0 : Fin 1) k) (ix2 k (0 : Fin 1)) (by
    rw [Shape.rowMajor_val_two, Shape.rowMajor_val_two]
    show k.val * 1 + 0 = 0 * K + k.val
    rw [Nat.mul_one, Nat.add_zero, Nat.zero_mul, Nat.zero_add])

end Cert.Lib.UnitAxes

end
-- ==== Proof.Bridge.lean ====
/-
  The kernel's three arrays are the reference's stages, as functions of the eight argument arrays.
  * The logits region's operands are the arguments after a format change (the identity at the ideal values) or a
    reshape, and the hidden projection hidden . W2 + b2; its logits are the reference's, entry by entry: both are
    (sum over u of tanh(x . W1 + b1 + hidden projection) * V) + bv, the kernel's matrix product and lane sum and the
    reference's two dot_generals the same plain sums.
  * From equal logits the host computes the same row maxima and sums of exponentials on both sides, the reference's
    extra maximum with minus infinity changing nothing.
  * So the attention weights agree, and the kernel's context, zero plus the four blocks' weighted sums of feature
    rows, is the reference's zero plus one sum over all 2048 time steps: a finite sum regrouped into its blocks.
-/
import proofs.«125012_j4870492914109_2_alg».proof.Proof.LogitsRegion
import proofs.«125012_j4870492914109_2_alg».proof.Proof.ContextAcc
import proofs.«125012_j4870492914109_2_alg».proof.Proof.Boundaries
import proofs.«125012_j4870492914109_2_alg».proof.Proof.RefLogits
import proofs.«125012_j4870492914109_2_alg».proof.Proof.RefSoftmax
import proofs.«125012_j4870492914109_2_alg».proof.Proof.LibRowForms
import proofs.«125012_j4870492914109_2_alg».proof.Proof.LibUnitAxes

noncomputable section

open scoped BigOperators

namespace Cert.Bridge

open Cert.KernelIdeal Cert.KernelIdeal.Gen Cert.ReferenceIdeal.Read Cert.ReferenceIdeal.Spec
open Idealize.ShloMosaic Idealize.ShloMosaic.ValueIdx Cert.Lib
open Cert.KernelIdeal.LogitsRegion Cert.KernelIdeal.ContextRegion Cert.KernelIdeal.Results

/-- The hidden projection as the kernel's host code spells it: hidden . W2 + b2, the bias repeated down the rows. -/
abbrev hiddenK (x1 : FVec Ideal S32x1024 .f32) (x4 : FVec Ideal S1024x1024 .f32) (x5 : FVec Ideal S1024 .f32) : FVec Ideal S32x1024 .f32 :=
  addf (Host.dotGeneral dot_S32x1024_S1024x1024_S32x1024_1_0_0_1_n_n none x1 x4)
    (broadcastInDim S32x1024 ![0, 1] bcast_S1x1024_S32x1024_0_1 (broadcastInDim S1x1024 ![1] bcast_S1024_S1x1024_1 x5))

/-- The kernel's logits are the reference's. -/
theorem logits_bridge (x0 : FVec Ideal S32x2048x1024 .f32) (x1 : FVec Ideal S32x1024 .f32) (x2 : FVec Ideal S1024x1024 .f32) (x3 : FVec Ideal S1024 .f32)
    (x4 : FVec Ideal S1024x1024 .f32) (x5 : FVec Ideal S1024 .f32) (x6 : FVec Ideal S1024x1 .f32) (x7 : FVec Ideal S1 .f32) :
    logitsOf x0 (truncf .bf16 x2 bitsLt_bf16_f32) (shapeCast S1x1024 x3 shapeCasts_S1024_S1x1024)
        (shapeCast S32x1x1024 (hiddenK x1 x4 x5) shapeCasts_S32x1024_S32x1x1024)
        (shapeCast S1x1024 x6 shapeCasts_S1024x1_S1x1024) (shapeCast S1x1 x7 shapeCasts_S1_S1x1)
      = val_main_v15 (F := Ideal) x0 x1 x2 x3 x4 x5 x6 x7 := by
  funext i
  have hi2 : (i 2).val < 1 := (i 2).isLt
  obtain ⟨b, t, rfl⟩ : ∃ (b : Fin 32) (t : Fin 2048), i = ix3 b t (0 : Fin 1) :=
    ⟨⟨(i 0).val, (i 0).isLt⟩, ⟨(i 1).val, (i 1).isLt⟩, funext fun a => Fin.ext (by
      match a with
      | ⟨0, _⟩ => rfl
      | ⟨1, _⟩ => rfl
      | ⟨2, _⟩ => show (i 2).val = 0; omega)⟩
  refine Eq.trans ?_ (ref_logit x0 x1 x2 x3 x4 x5 x6 x7 b t).symm
  show logitAt _ _ _ _ _ _ b t = _
  unfold logitAt
  refine congrArg₂ (· + ·) (Finset.sum_congr rfl fun u _ => ?_) ?_
  · refine congrArg₂ (· * ·) (congrArg Ideal.tanh (congrArg₂ (· + ·) (congrArg₂ (· + ·) (Finset.sum_congr rfl fun d _ => ?_) ?_) ?_)) ?_
    · rfl
    · exact RowForms.vecRow_apply x3 _ u
    · exact UnitAxes.midUnit_apply (hiddenK x1 x4 x5) _ b u
    · exact UnitAxes.colRow_apply x6 _ u
  · exact RowForms.vecRow_apply x7 _ (0 : Fin 1)

/-- From the reference's logits the kernel's host code computes the reference's broadcast row maxima. -/
theorem max_bridge (x0 : FVec Ideal S32x2048x1024 .f32) (x1 : FVec Ideal S32x1024 .f32) (x2 : FVec Ideal S1024x1024 .f32) (x3 : FVec Ideal S1024 .f32)
    (x4 : FVec Ideal S1024x1024 .f32) (x5 : FVec Ideal S1024 .f32) (x6 : FVec Ideal S1024x1 .f32) (x7 : FVec Ideal S1 .f32) :
    broadcastInDim S32x1x1 ![0, 2] bcast_S32x1_S32x1x1_0_2 (rowMax (F := Ideal) (val_main_v15 (F := Ideal) x0 x1 x2 x3 x4 x5 x6 x7)) = val_main_v19 (F := Ideal) x0 x1 x2 x3 x4 x5 x6 x7 := by
  unfold val_main_v19
  rw [ref_max_eq]
  rfl

/-- … and the reference's broadcast sums of exponentials. -/
theorem sum_bridge (x0 : FVec Ideal S32x2048x1024 .f32) (x1 : FVec Ideal S32x1024 .f32) (x2 : FVec Ideal S1024x1024 .f32) (x3 : FVec Ideal S1024 .f32)
    (x4 : FVec Ideal S1024x1024 .f32) (x5 : FVec Ideal S1024 .f32) (x6 : FVec Ideal S1024x1 .f32) (x7 : FVec Ideal S1 .f32) :
    broadcastInDim S32x1x1 ![0, 2] bcast_S32x1_S32x1x1_0_2
        (rowSumExp (F := Ideal) (val_main_v15 (F := Ideal) x0 x1 x2 x3 x4 x5 x6 x7) (rowMax (F := Ideal) (val_main_v15 (F := Ideal) x0 x1 x2 x3 x4 x5 x6 x7)))
      = val_main_v24 (F := Ideal) x0 x1 x2 x3 x4 x5 x6 x7 := by
  unfold val_main_v24 val_main_v23 val_main_v22 val_main_v21 val_main_v20 val_main_v19
  rw [ref_max_eq]
  rfl

/-- The kernel's attention weights over the reference's logits and statistics are the reference's weights. -/
theorem weights_bridge (x0 : FVec Ideal S32x2048x1024 .f32) (x1 : FVec Ideal S32x1024 .f32) (x2 : FVec Ideal S1024x1024 .f32) (x3 : FVec Ideal S1024 .f32)
    (x4 : FVec Ideal S1024x1024 .f32) (x5 : FVec Ideal S1024 .f32) (x6 : FVec Ideal S1024x1 .f32) (x7 : FVec Ideal S1 .f32) :
    weightsOf (val_main_v15 (F := Ideal) x0 x1 x2 x3 x4 x5 x6 x7) (val_main_v19 (F := Ideal) x0 x1 x2 x3 x4 x5 x6 x7) (val_main_v24 (F := Ideal) x0 x1 x2 x3 x4 x5 x6 x7) = val_main_v26 (F := Ideal) x0 x1 x2 x3 x4 x5 x6 x7 := by
  funext i
  have hi2 : (i 2).val < 1 := (i 2).isLt
  obtain ⟨b, t, rfl⟩ : ∃ (b : Fin 32) (t : Fin 2048), i = ix3 b t (0 : Fin 1) :=
    ⟨⟨(i 0).val, (i 0).isLt⟩, ⟨(i 1).val, (i 1).isLt⟩, funext fun a => Fin.ext (by
      match a with
      | ⟨0, _⟩ => rfl
      | ⟨1, _⟩ => rfl
      | ⟨2, _⟩ => show (i 2).val = 0; omega)⟩
  refine Eq.trans ?_ (ref_weight x0 x1 x2 x3 x4 x5 x6 x7 b t).symm
  rfl

/-- The kernel's context, reshaped to [32,1024], is the reference's. -/
theorem context_bridge (x0 : FVec Ideal S32x2048x1024 .f32) (x1 : FVec Ideal S32x1024 .f32) (x2 : FVec Ideal S1024x1024 .f32) (x3 : FVec Ideal S1024 .f32)
    (x4 : FVec Ideal S1024x1024 .f32) (x5 : FVec Ideal S1024 .f32) (x6 : FVec Ideal S1024x1 .f32) (x7 : FVec Ideal S1 .f32) :
    shapeCast S32x1024 (contextOf x0 (val_main_v15 (F := Ideal) x0 x1 x2 x3 x4 x5 x6 x7) (val_main_v19 (F := Ideal) x0 x1 x2 x3 x4 x5 x6 x7) (val_main_v24 (F := Ideal) x0 x1 x2 x3 x4 x5 x6 x7)) shapeCasts_S32x1x1024_S32x1024
      = val_main_v29 (F := Ideal) x0 x1 x2 x3 x4 x5 x6 x7 := by
  funext j
  obtain ⟨b, d, rfl⟩ : ∃ (b : Fin 32) (d : Fin 1024), j = ix2 b d := ⟨j 0, j 1, eq_ix2 j⟩
  have hb : b.val < 32 := b.isLt
  refine (UnitAxes.dropMidUnit_apply _ _ b d).trans ?_
  refine Eq.trans ?_ (ref_context x0 x1 x2 x3 x4 x5 x6 x7 b d).symm
  show 0 + ∑ s ∈ Finset.range 4, contrib x0 (val_main_v15 (F := Ideal) x0 x1 x2 x3 x4 x5 x6 x7) (val_main_v19 (F := Ideal) x0 x1 x2 x3 x4 x5 x6 x7) (val_main_v24 (F := Ideal) x0 x1 x2 x3 x4 x5 x6 x7) (4 * b.val + s) d = _
  refine congrArg (0 + ·) ?_
  refine sum_four_blocks (fun k => val_main_v26 (F := Ideal) x0 x1 x2 x3 x4 x5 x6 x7 (ix3 b k (0 : Fin 1)) * x0 (ix3 b k d)) _ (fun s hs => ?_)
  unfold contrib
  rw [dif_pos (by omega)]
  refine Finset.sum_congr rfl fun r _ => ?_
  have hr : r.val < 512 := r.isLt
  have e1 : ∀ p : (4 * b.val + s) / 4 < 32, (⟨(4 * b.val + s) / 4, p⟩ : Fin 32) = b := fun p =>
    Fin.ext (by show (4 * b.val + s) / 4 = b.val; omega)
  have e2 : ∀ p : 512 * ((4 * b.val + s) % 4) + r.val < 2048,
      (⟨512 * ((4 * b.val + s) % 4) + r.val, p⟩ : Fin 2048) = ⟨512 * s + r.val, by omega⟩ := fun p =>
    Fin.ext (by show 512 * ((4 * b.val + s) % 4) + r.val = 512 * s + r.val; omega)
  simp only [e1, e2]
  rw [ref_weight]
  rfl

end Cert.Bridge

end
-- ==== Proof.KernelValue.lean ====
/-
  The idealized kernel's run with its results as functions of the arguments. The last boundary's contents of the two
  result buffers, walked back through the context region, the host's softmax statistics, the logits region and the
  host's operand preparation, are the reference's attention-weight stage and context stage of the eight arguments.
-/
import proofs.«125012_j4870492914109_2_alg».proof.Proof.RunResults
import proofs.«125012_j4870492914109_2_alg».proof.Proof.Boundaries
import proofs.«125012_j4870492914109_2_alg».proof.Proof.Bridge

set_option maxRecDepth 16384

noncomputable section

namespace Cert.KernelIdeal.Results

open Cert.KernelIdeal Cert.KernelIdeal.Gen Cert.ReferenceIdeal.Read
open Idealize.ShloMosaic Idealize.ShloMosaic.TcCoe
open Idealize.SL Idealize.SL.Sem

variable (m : (ℓ : Loc nD τ sig) → Buf (Elt Ideal) ℓ) (ρ : Dev nD → PrngReg)

/-- The logits the first region leaves are the reference's logits of the arguments. -/
theorem logits_value (c : Dev nD) :
    logitsArr m ρ c = val_main_v15 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show (dat0 (V1 m ρ) c).arrAt 6 cfg0.N = _
  rw [LogitsRegion.logits_final (V1 m ρ) c, entry0_feat, entry0_w1, entry0_b1, entry0_ph, entry0_v, entry0_bv]
  exact Bridge.logits_bridge _ _ _ _ _ _ _ _

/-- The attention weights at the last boundary are the reference's. -/
theorem attn_value (c : Dev nD) :
    W5 m ρ c (Proc.devRef .tc main_v17_0) = val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [result_attn, ContextRegion.weights_final (V3 m ρ) c, entry1_logits, entry1_max, entry1_sum, logits_value,
    Bridge.max_bridge, Bridge.sum_bridge]
  exact Bridge.weights_bridge _ _ _ _ _ _ _ _

/-- The context vector at the last boundary is the reference's. -/
theorem ctx_value (c : Dev nD) :
    W5 m ρ c (Proc.devRef .tc main_v18) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [result_ctx, ContextRegion.context_final (V3 m ρ) c, entry1_feat, entry1_logits, entry1_max, entry1_sum, logits_value,
    Bridge.max_bridge, Bridge.sum_bridge]
  exact Bridge.context_bridge _ _ _ _ _ _ _ _

/-- The run: both results at the reference's stages of the arguments, the arguments unchanged. -/
theorem run_value : θ_run defs (onTc (τ := τ) (main (F := Ideal))) ⟨m, fun _ => 0, ρ⟩ (fun r => ∀ c : Dev nD,
      r.2.mem ((c.tc : Thread nD τ).loc main_v18) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v17_0) = val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (ctx_value m ρ c), (h c).2.1.trans (attn_value m ρ c), (h c).2.2⟩)
    (run_results m ρ)

end Cert.KernelIdeal.Results

end
-- ==== Proof.lean ====
/-
  The certificate of an additive (Bahdanau) attention kernel against its jnp reference.

  The kernel computes logits[b,t] = (sum over u of tanh(x[b,t,:] . W1[:,u] + b1[u] + (hidden . W2 + b2)[b,u]) * V[u]) + bv
  in one region (a matrix product per block of 512 time steps), takes the row maxima and the sums of exponentials on
  the host, and in a second region writes weight[b,t] = exp(logit[b,t] - max[b]) / sum[b] and accumulates
  context[b,d] = sum over t of weight[b,t] * x[b,t,d] block by block over each batch row's four time blocks.
  The reference computes the same logits with two dot_generals, jax.nn.softmax over time, and one sum over time.

  Over the extended reals the two agree entry by entry: a change of float format is the identity, a matrix product
  into zero and a lane reduction are the plain sums the reference's contractions are, the reference's maximum with
  minus infinity changes nothing, and a sum over 2048 time steps is the sum of its four blocks of 512 (addition of
  extended reals is commutative and associative, so no finiteness of the inputs is used).

  The three frames: each kernel program's is the generated frame certificate; the reference's is its generated run with
  the results dropped. The idealization rewrote nothing, so its claim is trivial.
-/
import proofs.«125012_j4870492914109_2_alg».proof.Defs
import proofs.«125012_j4870492914109_2_alg».proof.Proof.Gen.Kernel
import proofs.«125012_j4870492914109_2_alg».proof.Proof.Gen.Kernel.Skeleton
import proofs.«125012_j4870492914109_2_alg».proof.Proof.Gen.Kernel.Launch
import proofs.«125012_j4870492914109_2_alg».proof.Proof.Gen.Kernel.Points
import proofs.«125012_j4870492914109_2_alg».proof.Proof.Gen.Kernel.Frame
import proofs.«125012_j4870492914109_2_alg».proof.Proof.Gen.KernelIdeal
import proofs.«125012_j4870492914109_2_alg».proof.Proof.Gen.KernelIdeal.Skeleton
import proofs.«125012_j4870492914109_2_alg».proof.Proof.Gen.KernelIdeal.Launch
import proofs.«125012_j4870492914109_2_alg».proof.Proof.Gen.KernelIdeal.Points
import proofs.«125012_j4870492914109_2_alg».proof.Proof.Gen.KernelIdeal.Frame
import proofs.«125012_j4870492914109_2_alg».proof.Proof.Gen.ReferenceIdeal
import proofs.«125012_j4870492914109_2_alg».proof.Proof.Gen.Pre_finite_inputs
import proofs.«125012_j4870492914109_2_alg».proof.Proof.Gen.ReferenceIdeal.Run
import proofs.«125012_j4870492914109_2_alg».proof.Proof.Gen.ReferenceIdeal.Read
import proofs.«125012_j4870492914109_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the context vector and the attention weights at the reference's stages of the arguments,
    which agree. -/
theorem algebraic : Cert.algebraic_KernelIdeal_ReferenceIdeal := by
  intro m ρ m' ρ' _ hagree
  refine ⟨fun c => Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v26 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Results.run_value m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v29_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
  · rw [(h c).2.1, Cert.ReferenceIdeal.Read.val_main_v26_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
